-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v88)) (v2 : (c : Dev Cert.KernelIdeal.nD) → Buf (Elt Ideal) ((c.tc : Thread Cert.KernelIdeal.nD Cert.KernelIdeal.τ).loc Cert.KernelIdeal.main_v108)) (v3 : (c : Dev Cert.KernelIdeal.nD) → Buf (Elt Ideal) ((c.tc : Thread Cert.KernelIdeal.nD Cert.KernelIdeal.τ).loc Cert.KernelIdeal.main_v87_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_v108) = v2 c
          ∧ r.2.mem ((c.tc : Thread Cert.KernelIdeal.nD Cert.KernelIdeal.τ).loc Cert.KernelIdeal.main_v87_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1000000 : Shape := ⟨2, ![2, 1000000]⟩
abbrev S100000 : Shape := ⟨1, ![100000]⟩
abbrev S32x64 : Shape := ⟨2, ![32, 64]⟩
abbrev S64 : Shape := ⟨1, ![64]⟩
abbrev S3x64x64 : Shape := ⟨3, ![3, 64, 64]⟩
abbrev S3x64 : Shape := ⟨2, ![3, 64]⟩
abbrev S64x8 : Shape := ⟨2, ![64, 8]⟩
abbrev S8 : Shape := ⟨1, ![8]⟩
abbrev S64x1 : Shape := ⟨2, ![64, 1]⟩
abbrev S1 : Shape := ⟨1, ![1]⟩
abbrev S64x16 : Shape := ⟨2, ![64, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg9 : FVec F S64x1 .f32) (main_arg10 : FVec F S1 .f32) (main_arg11 : FVec F S64x16 .f32) (main_arg12 : FVec F S16 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x16 .f32 := Host.absf main_arg11
  let main_cst_16 : FVec F S_ .f32 := constant S_ .f32 0x7F800000#32
  let main_v45 : FVec F S64x16 .f32 := broadcastInDim S64x16 ![] bcast_S_S64x16 main_cst_16
  let main_v46 : IVec S64x16 1 := cmpf .olt main_v44 main_v45
  let main_c_17 : IVec S_ 1 := constantI S_ 1 1#1
  let main_v47 : IVec S_ 1 := (fun x v => Host.reduce IntOp.andi x v reducesTo_S64x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg6 : FVec F S3x64 .f32) (main_arg7 : FVec F S64x8 .f32) (main_arg8 : FVec F S8 .f32) (main_arg9 : FVec F S64x1 .f32) (main_arg10 : FVec F S1 .f32) (main_arg11 : FVec F S64x16 .f32) (main_arg12 : FVec F S16 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x8 .f32 := Host.absf main_arg7
  let main_cst_8 : FVec F S_ .f32 := constant S_ .f32 0x7F800000#32
  let main_v25 : FVec F S64x8 .f32 := broadcastInDim S64x8 ![] bcast_S_S64x8 main_cst_8
  let main_v26 : IVec S64x8 1 := cmpf .olt main_v24 main_v25
  let main_c_9 : IVec S_ 1 := constantI S_ 1 1#1
  let main_v27 : IVec S_ 1 := (fun x v => Host.reduce IntOp.andi x v reducesTo_S64x8_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x32 .f32) (main_arg1 : IVec S2x1000000 32) (main_arg2 : IVec S100000 32) (main_arg3 : FVec F S32x64 .f32) (main_arg4 : FVec F S64 .f32) (main_arg5 : FVec F S3x64x64 .f32) (main_arg6 : FVec F S3x64 .f32) (main_arg7 : FVec F S64x8 .f32) (main_arg8 : FVec F S8 .f32) (main_arg9 : FVec F S64x1 .f32) (main_arg10 : FVec F S1 .f32) (main_arg11 : FVec F S64x16 .f32) (main_arg12 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_arg11 main_arg12 main_v13 main_v16
-- ==== Kernel.lean ====
abbrev S100000x32 : Shape := ⟨2, ![100000, 32]⟩
abbrev S2x1000000 : Shape := ⟨2, ![2, 1000000]⟩
abbrev S100000 : Shape := ⟨1, ![100000]⟩
abbrev S32x64 : Shape := ⟨2, ![32, 64]⟩
abbrev S64 : Shape := ⟨1, ![64]⟩
abbrev S3x64x64 : Shape := ⟨3, ![3, 64, 64]⟩
abbrev S3x64 : Shape := ⟨2, ![3, 64]⟩
abbrev S64x8 : Shape := ⟨2, ![64, 8]⟩
abbrev S8 : Shape := ⟨1, ![8]⟩
abbrev S64x1 : Shape := ⟨2, ![64, 1]⟩
abbrev S1 : Shape := ⟨1, ![1]⟩
abbrev S64x16 : Shape := ⟨2, ![64, 16]⟩
abbrev S16 : Shape := ⟨1, ![16]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1x64x64 : Shape := ⟨3, ![1, 64, 64]⟩
abbrev S64x64 : Shape := ⟨2, ![64, 64]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S1100000x64 : Shape := ⟨2, ![1100000, 64]⟩
abbrev S1x1 : Shape := ⟨2, ![1, 1]⟩
abbrev S100000x1 : Shape := ⟨2, ![100000, 1]⟩
abbrev S5000x1 : Shape := ⟨2, ![5000, 1]⟩
abbrev S1024 : Shape := ⟨1, ![1024]⟩
abbrev S1024x64 : Shape := ⟨2, ![1024, 64]⟩
abbrev S1024x1 : Shape := ⟨2, ![1024, 1]⟩
abbrev S1024x8 : Shape := ⟨2, ![1024, 8]⟩
abbrev S1x8 : Shape := ⟨2, ![1, 8]⟩
abbrev S1024x16 : Shape := ⟨2, ![1024, 16]⟩
abbrev S1x16 : Shape := ⟨2, ![1, 16]⟩

abbrev nBuf : Space → Nat
  | .hbm => 146
  | .vmem => 28
  | .smem => 0
  | _ => 0

abbrev hbmTy0_0 (i : Nat) : BufTy := match i % 128 with
  | 0 => ⟨S100000x32, .f32⟩
  | 1 => ⟨S2x1000000, .i32⟩
  | 2 => ⟨S100000, .i32⟩
  | 3 => ⟨S32x64, .f32⟩
  | 4 => ⟨S64, .f32⟩
  | 5 => ⟨S3x64x64, .f32⟩
  | 6 => ⟨S3x64, .f32⟩
  | 7 => ⟨S64x8, .f32⟩
  | 8 => ⟨S8, .f32⟩
  | 9 => ⟨S64x1, .f32⟩
  | 10 => ⟨S1, .f32⟩
  | 11 => ⟨S64x16, .f32⟩
  | 12 => ⟨S16, .f32⟩
  | 13 => ⟨S100000, .i32⟩
  | 14 => ⟨S1x1000000, .i32⟩
  | 15 => ⟨S1000000, .i32⟩
  | 16 => ⟨S1100000, .i32⟩
  | 17 => ⟨S1x1000000, .i32⟩
  | 18 => ⟨S1000000, .i32⟩
  | 19 => ⟨S1100000, .i32⟩
  | 20 => ⟨S_, .f32⟩
  | 21 => ⟨S1100000, .f32⟩
  | 22 => ⟨S_, .f32⟩
  | 23 => ⟨S100000, .f32⟩
  | 24 => ⟨S1100000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1100000, .i32⟩
  | 36 => ⟨S1100000, .i1⟩
  | 37 => ⟨S_, .i32⟩
  | 38 => ⟨S1100000, .i32⟩
  | 39 => ⟨S1100000, .i32⟩
  | 40 => ⟨S1100000, .i32⟩
  | 41 => ⟨S1100000x1, .i32⟩
  | 42 => ⟨S1100000, .f32⟩
  | 43 => ⟨S_, .i32⟩
  | 44 => ⟨S1100000, .i32⟩
  | 45 => ⟨S1100000, .i1⟩
  | 46 => ⟨S_, .i32⟩
  | 47 => ⟨S1100000, .i32⟩
  | 48 => ⟨S1100000, .i32⟩
  | 49 => ⟨S1100000, .i32⟩
  | 50 => ⟨S1100000x1, .i32⟩
  | 51 => ⟨S1100000, .f32⟩
  | 52 => ⟨S1100000, .f32⟩
  | 53 => ⟨S1100000x1, .f32⟩
  | 54 => ⟨S1x64x64, .f32⟩
  | 55 => ⟨S64x64, .f32⟩
  | 56 => ⟨S1x64, .f32⟩
  | 57 => ⟨S100000x64, .f32⟩
  | 58 => ⟨S_, .i32⟩
  | 59 => ⟨S1100000, .i32⟩
  | 60 => ⟨S1100000, .i1⟩
  | 61 => ⟨S_, .i32⟩
  | 62 => ⟨S1100000, .i32⟩
  | 63 => ⟨S1100000, .i32⟩
  | 64 => ⟨S1100000, .i32⟩
  | 65 => ⟨S1100000x1, .i32⟩
  | 66 => ⟨S1100000x64, .f32⟩
  | 67 => ⟨S1100000x64, .f32⟩
  | 68 => ⟨S1100000x64, .f32⟩
  | 69 => ⟨S_, .f32⟩
  | 70 => ⟨S100000x64, .f32⟩
  | 71 => ⟨S1100000x1, .i32⟩
  | 72 => ⟨S100000x64, .f32⟩
  | 73 => ⟨S1x64, .f32⟩
  | 74 => ⟨S64, .f32⟩
  | 75 => ⟨S1x64x64, .f32⟩
  | 76 => ⟨S64x64, .f32⟩
  | 77 => ⟨S1x64, .f32⟩
  | 78 => ⟨S100000x64, .f32⟩
  | 79 => ⟨S_, .i32⟩
  | 80 => ⟨S1100000, .i32⟩
  | 81 => ⟨S1100000, .i1⟩
  | 82 => ⟨S_, .i32⟩
  | 83 => ⟨S1100000, .i32⟩
  | 84 => ⟨S1100000, .i32⟩
  | 85 => ⟨S1100000, .i32⟩
  | 86 => ⟨S1100000x1, .i32⟩
  | 87 => ⟨S1100000x64, .f32⟩
  | 88 => ⟨S1100000x64, .f32⟩
  | 89 => ⟨S1100000x64, .f32⟩
  | 90 => ⟨S_, .f32⟩
  | 91 => ⟨S100000x64, .f32⟩
  | 92 => ⟨S1100000x1, .i32⟩
  | 93 => ⟨S100000x64, .f32⟩
  | 94 => ⟨S1x64, .f32⟩
  | 95 => ⟨S64, .f32⟩
  | 96 => ⟨S1x64x64, .f32⟩
  | 97 => ⟨S64x64, .f32⟩
  | 98 => ⟨S1x64, .f32⟩
  | 99 => ⟨S100000x64, .f32⟩
  | 100 => ⟨S_, .i32⟩
  | 101 => ⟨S1100000, .i32⟩
  | 102 => ⟨S1100000, .i1⟩
  | 103 => ⟨S_, .i32⟩
  | 104 => ⟨S1100000, .i32⟩
  | 105 => ⟨S1100000, .i32⟩
  | 106 => ⟨S1100000, .i32⟩
  | 107 => ⟨S1100000x1, .i32⟩
  | 108 => ⟨S1100000x64, .f32⟩
  | 109 => ⟨S1100000x64, .f32⟩
  | 110 => ⟨S1100000x64, .f32⟩
  | 111 => ⟨S_, .f32⟩
  | 112 => ⟨S100000x64, .f32⟩
  | 113 => ⟨S1100000x1, .i32⟩
  | 114 => ⟨S100000x64, .f32⟩
  | 115 => ⟨S1x64, .f32⟩
  | 116 => ⟨S64, .f32⟩
  | 117 => ⟨S1x64, .f32⟩
  | 118 => ⟨S1x1, .f32⟩
  | 119 => ⟨S100000x64, .f32⟩
  | 120 => ⟨S100000x1, .f32⟩
  | 121 => ⟨S100000, .f32⟩
  | 122 => ⟨S_, .f32⟩
  | 123 => ⟨S100000, .f32⟩
  | 124 => ⟨S_, .f32⟩
  | 125 => ⟨S1024, .f32⟩
  | 126 => ⟨S100000x1, .i32⟩
  | 127 => ⟨S1024, .f32⟩
  | _ => ⟨S100000x32, .f32⟩

abbrev hbmTy0_1 (i : Nat) : BufTy := match i % 128 with
  | 0 => ⟨S_, .f32⟩
  | 1 => ⟨S1024x64, .f32⟩
  | 2 => ⟨S100000x1, .i32⟩
  | 3 => ⟨S1024x64, .f32⟩
  | 4 => ⟨S_, .f32⟩
  | 5 => ⟨S1024, .f32⟩
  | 6 => ⟨S1024, .f32⟩
  | 7 => ⟨S1024x1, .f32⟩
  | 8 => ⟨S1024x64, .f32⟩
  | 9 => ⟨S1024x64, .f32⟩
  | 10 => ⟨S1024x8, .f32⟩
  | 11 => ⟨S1x8, .f32⟩
  | 12 => ⟨S1024x8, .f32⟩
  | 13 => ⟨S1024x8, .f32⟩
  | 14 => ⟨S1024x16, .f32⟩
  | 15 => ⟨S1x16, .f32⟩
  | 16 => ⟨S1024x16, .f32⟩
  | 17 => ⟨S1024x16, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S1x64, .f32⟩
  | .local _ .vmem, ⟨4, _⟩ => ⟨S64x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S64x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S1x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S64x1, .f32⟩
  | .local _ .vmem, ⟨23, _⟩ => ⟨S1x1, .f32⟩
  | .local _ .vmem, ⟨24, _⟩ => ⟨S5000x64, .f32⟩
  | .local _ .vmem, ⟨25, _⟩ => ⟨S5000x64, .f32⟩
  | .local _ .vmem, ⟨26, _⟩ => ⟨S5000x1, .f32⟩
  | .local _ .vmem, ⟨27, _⟩ => ⟨S5000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_c_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_12 : Ref sig .tc := ⟨.hbm, 100, rfl⟩
abbrev main_v71 : Ref sig .tc := ⟨.hbm, 101, rfl⟩
abbrev main_v72 : Ref sig .tc := ⟨.hbm, 102, rfl⟩
abbrev main_c_13 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87_0 : Ref sig .tc := ⟨.hbm, 119, rfl⟩
abbrev main_v87_1 : Ref sig .tc := ⟨.hbm, 120, rfl⟩
abbrev main_v88 : Ref sig .tc := ⟨.hbm, 121, rfl⟩
abbrev main_cst_15 : Ref sig .tc := ⟨.hbm, 122, rfl⟩
abbrev main_v89 : Ref sig .tc := ⟨.hbm, 123, rfl⟩
abbrev main_cst_16 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_17 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_18 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem4_1 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  slices_S3x64x64_S1x64x64_0_0_0 : S3x64x64.Slices ![0, 0, 0] S1x64x64
  shapeCasts_S1x64x64_S64x64 : S1x64x64.ShapeCasts S64x64
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x64_S5000x64_0_0 : ∀ a, (![0, 0] : Fin 2 → Nat) a + S5000x64.size a ≤ S5000x64.size a
  h_S5000x64 : 0 < S5000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  shapeCasts_S5000x64_S5000x64 : S5000x64.ShapeCasts S5000x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  bcast_S_S1024 : S_.BroadcastsInDim S1024 (![] : Fin 0 → Fin S1024.rank)
  bcast_S100000_S100000x1_0 : S100000.BroadcastsInDim S100000x1 (![0] : Fin 1 → Fin S100000x1.rank)
  bcast_S_S1024x64 : S_.BroadcastsInDim S1024x64 (![] : Fin 0 → Fin S1024x64.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x1_S5000x1_1_0_0_1_n_n_wf : DotDims.WF S5000x64 S64x1 S5000x1 [1] [0] [0] [1] [] []
  scatter_S1024_S100000x1_S100000_n_0_0_1_wf : ScatterDims.WF S1024 S100000x1 S100000 [] [0] [0] 1
  scatter_S1024x64_S100000x1_S100000x64_1_0_0_1_wf : ScatterDims.WF S1024x64 S100000x1 S100000x64 [1] [0] [0] 1
  dot_S1024x64_S64x8_S1024x8_1_0_0_1_n_n_wf : DotDims.WF S1024x64 S64x8 S1024x8 [1] [0] [0] [1] [] []
  dot_S1024x64_S64x16_S1024x16_1_0_0_1_n_n_wf : DotDims.WF S1024x64 S64x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x1.size a ≤ S64x1.size a
  hwx3_2 : ∀ i : grid3.Coords, EltTy.bits .f32 = 32 ∨ (Rect.block (s := S64x1) S64x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v82) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87_0) S5000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v87_1) S5000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1000000 : Shape := ⟨2, ![2, 1000000]⟩
abbrev S100000 : Shape := ⟨1, ![100000]⟩
abbrev S32x64 : Shape := ⟨2, ![32, 64]⟩
abbrev S64 : Shape := ⟨1, ![64]⟩
abbrev S3x64x64 : Shape := ⟨3, ![3, 64, 64]⟩
abbrev S3x64 : Shape := ⟨2, ![3, 64]⟩
abbrev S64x8 : Shape := ⟨2, ![64, 8]⟩
abbrev S8 : Shape := ⟨1, ![8]⟩
abbrev S64x1 : Shape := ⟨2, ![64, 1]⟩
abbrev S1 : Shape := ⟨1, ![1]⟩
abbrev S64x16 : Shape := ⟨2, ![64, 16]⟩
abbrev S16 : Shape := ⟨1, ![16]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1x64 : Shape := ⟨2, ![1, 64]⟩
abbrev S1x64x64 : Shape := ⟨3, ![1, 64, 64]⟩
abbrev S64x64 : Shape := ⟨2, ![64, 64]⟩
abbrev S1100000x64 : Shape := ⟨2, ![1100000, 64]⟩
abbrev S1024 : Shape := ⟨1, ![1024]⟩
abbrev S100000x1 : Shape := ⟨2, ![100000, 1]⟩
abbrev S1024x64 : Shape := ⟨2, ![1024, 64]⟩
abbrev S1024x1 : Shape := ⟨2, ![1024, 1]⟩
abbrev S1024x8 : Shape := ⟨2, ![1024, 8]⟩
abbrev S1x8 : Shape := ⟨2, ![1, 8]⟩
abbrev S1x1 : Shape := ⟨2, ![1, 1]⟩
abbrev S1024x16 : Shape := ⟨2, ![1024, 16]⟩
abbrev S1x16 : Shape := ⟨2, ![1, 16]⟩

abbrev nBuf : Space → Nat
  | .hbm => 168
  | .vmem => 0
  | .smem => 0
  | _ => 0

abbrev hbmTy0_0 (i : Nat) : BufTy := match i % 128 with
  | 0 => ⟨S100000x32, .f32⟩
  | 1 => ⟨S2x1000000, .i32⟩
  | 2 => ⟨S100000, .i32⟩
  | 3 => ⟨S32x64, .f32⟩
  | 4 => ⟨S64, .f32⟩
  | 5 => ⟨S3x64x64, .f32⟩
  | 6 => ⟨S3x64, .f32⟩
  | 7 => ⟨S64x8, .f32⟩
  | 8 => ⟨S8, .f32⟩
  | 9 => ⟨S64x1, .f32⟩
  | 10 => ⟨S1, .f32⟩
  | 11 => ⟨S64x16, .f32⟩
  | 12 => ⟨S16, .f32⟩
  | 13 => ⟨S100000, .i32⟩
  | 14 => ⟨S1x1000000, .i32⟩
  | 15 => ⟨S1000000, .i32⟩
  | 16 => ⟨S1100000, .i32⟩
  | 17 => ⟨S1x1000000, .i32⟩
  | 18 => ⟨S1000000, .i32⟩
  | 19 => ⟨S1100000, .i32⟩
  | 20 => ⟨S_, .f32⟩
  | 21 => ⟨S1100000, .f32⟩
  | 22 => ⟨S_, .f32⟩
  | 23 => ⟨S100000, .f32⟩
  | 24 => ⟨S1100000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1100000, .i32⟩
  | 36 => ⟨S1100000, .i1⟩
  | 37 => ⟨S_, .i32⟩
  | 38 => ⟨S1100000, .i32⟩
  | 39 => ⟨S1100000, .i32⟩
  | 40 => ⟨S1100000, .i32⟩
  | 41 => ⟨S1100000x1, .i32⟩
  | 42 => ⟨S1100000, .f32⟩
  | 43 => ⟨S_, .i32⟩
  | 44 => ⟨S1100000, .i32⟩
  | 45 => ⟨S1100000, .i1⟩
  | 46 => ⟨S_, .i32⟩
  | 47 => ⟨S1100000, .i32⟩
  | 48 => ⟨S1100000, .i32⟩
  | 49 => ⟨S1100000, .i32⟩
  | 50 => ⟨S1100000x1, .i32⟩
  | 51 => ⟨S1100000, .f32⟩
  | 52 => ⟨S1100000, .f32⟩
  | 53 => ⟨S1100000x1, .f32⟩
  | 54 => ⟨S100000x64, .f32⟩
  | 55 => ⟨S1x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S1x64x64, .f32⟩
  | 62 => ⟨S64x64, .f32⟩
  | 63 => ⟨S100000x64, .f32⟩
  | 64 => ⟨S_, .i32⟩
  | 65 => ⟨S1100000, .i32⟩
  | 66 => ⟨S1100000, .i1⟩
  | 67 => ⟨S_, .i32⟩
  | 68 => ⟨S1100000, .i32⟩
  | 69 => ⟨S1100000, .i32⟩
  | 70 => ⟨S1100000, .i32⟩
  | 71 => ⟨S1100000x1, .i32⟩
  | 72 => ⟨S1100000x64, .f32⟩
  | 73 => ⟨S1100000x64, .f32⟩
  | 74 => ⟨S1100000x64, .f32⟩
  | 75 => ⟨S_, .f32⟩
  | 76 => ⟨S100000x64, .f32⟩
  | 77 => ⟨S1100000x1, .i32⟩
  | 78 => ⟨S100000x64, .f32⟩
  | 79 => ⟨S1x64, .f32⟩
  | 80 => ⟨S64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S1x64x64, .f32⟩
  | 88 => ⟨S64x64, .f32⟩
  | 89 => ⟨S100000x64, .f32⟩
  | 90 => ⟨S_, .i32⟩
  | 91 => ⟨S1100000, .i32⟩
  | 92 => ⟨S1100000, .i1⟩
  | 93 => ⟨S_, .i32⟩
  | 94 => ⟨S1100000, .i32⟩
  | 95 => ⟨S1100000, .i32⟩
  | 96 => ⟨S1100000, .i32⟩
  | 97 => ⟨S1100000x1, .i32⟩
  | 98 => ⟨S1100000x64, .f32⟩
  | 99 => ⟨S1100000x64, .f32⟩
  | 100 => ⟨S1100000x64, .f32⟩
  | 101 => ⟨S_, .f32⟩
  | 102 => ⟨S100000x64, .f32⟩
  | 103 => ⟨S1100000x1, .i32⟩
  | 104 => ⟨S100000x64, .f32⟩
  | 105 => ⟨S1x64, .f32⟩
  | 106 => ⟨S64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S1x64x64, .f32⟩
  | 114 => ⟨S64x64, .f32⟩
  | 115 => ⟨S100000x64, .f32⟩
  | 116 => ⟨S_, .i32⟩
  | 117 => ⟨S1100000, .i32⟩
  | 118 => ⟨S1100000, .i1⟩
  | 119 => ⟨S_, .i32⟩
  | 120 => ⟨S1100000, .i32⟩
  | 121 => ⟨S1100000, .i32⟩
  | 122 => ⟨S1100000, .i32⟩
  | 123 => ⟨S1100000x1, .i32⟩
  | 124 => ⟨S1100000x64, .f32⟩
  | 125 => ⟨S1100000x64, .f32⟩
  | 126 => ⟨S1100000x64, .f32⟩
  | 127 => ⟨S_, .f32⟩
  | _ => ⟨S100000x32, .f32⟩

abbrev hbmTy0_1 (i : Nat) : BufTy := match i % 128 with
  | 0 => ⟨S100000x64, .f32⟩
  | 1 => ⟨S1100000x1, .i32⟩
  | 2 => ⟨S100000x64, .f32⟩
  | 3 => ⟨S1x64, .f32⟩
  | 4 => ⟨S64, .f32⟩
  | 5 => ⟨S1x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S_, .f32⟩
  | 12 => ⟨S100000, .f32⟩
  | 13 => ⟨S_, .f32⟩
  | 14 => ⟨S1024, .f32⟩
  | 15 => ⟨S100000x1, .i32⟩
  | 16 => ⟨S1024, .f32⟩
  | 17 => ⟨S_, .f32⟩
  | 18 => ⟨S1024x64, .f32⟩
  | 19 => ⟨S100000x1, .i32⟩
  | 20 => ⟨S1024x64, .f32⟩
  | 21 => ⟨S_, .f32⟩
  | 22 => ⟨S1024, .f32⟩
  | 23 => ⟨S1024, .f32⟩
  | 24 => ⟨S1024x1, .f32⟩
  | 25 => ⟨S1024x64, .f32⟩
  | 26 => ⟨S1024x64, .f32⟩
  | 27 => ⟨S1024x8, .f32⟩
  | 28 => ⟨S1x8, .f32⟩
  | 29 => ⟨S1024x8, .f32⟩
  | 30 => ⟨S1024x8, .f32⟩
  | 31 => ⟨S100000x1, .f32⟩
  | 32 => ⟨S1x1, .f32⟩
  | 33 => ⟨S100000x1, .f32⟩
  | 34 => ⟨S100000x1, .f32⟩
  | 35 => ⟨S100000, .f32⟩
  | 36 => ⟨S1024x16, .f32⟩
  | 37 => ⟨S1x16, .f32⟩
  | 38 => ⟨S1024x16, .f32⟩
  | 39 => ⟨S1024x16, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call1_cst : Ref sig .tc := ⟨.hbm, 58, rfl⟩
abbrev main_call1_v0 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_6 : Ref sig .tc := ⟨.hbm, 64, rfl⟩
abbrev main_v39 : Ref sig .tc := ⟨.hbm, 65, rfl⟩
abbrev main_v40 : Ref sig .tc := ⟨.hbm, 66, rfl⟩
abbrev main_c_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call2_cst : Ref sig .tc := ⟨.hbm, 84, rfl⟩
abbrev main_call2_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_9 : Ref sig .tc := ⟨.hbm, 90, rfl⟩
abbrev main_v60 : Ref sig .tc := ⟨.hbm, 91, rfl⟩
abbrev main_v61 : Ref sig .tc := ⟨.hbm, 92, rfl⟩
abbrev main_c_10 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_11 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call3_cst : Ref sig .tc := ⟨.hbm, 110, rfl⟩
abbrev main_call3_v0 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_12 : Ref sig .tc := ⟨.hbm, 116, rfl⟩
abbrev main_v81 : Ref sig .tc := ⟨.hbm, 117, rfl⟩
abbrev main_v82 : Ref sig .tc := ⟨.hbm, 118, rfl⟩
abbrev main_c_13 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_14 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_call4_cst : Ref sig .tc := ⟨.hbm, 136, rfl⟩
abbrev main_call4_v0 : Ref sig .tc := ⟨.hbm, 137, rfl⟩
abbrev main_v98 : Ref sig .tc := ⟨.hbm, 138, rfl⟩
abbrev main_cst_15 : Ref sig .tc := ⟨.hbm, 139, rfl⟩
abbrev main_v99 : Ref sig .tc := ⟨.hbm, 140, rfl⟩
abbrev main_cst_16 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_17 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_18 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  bcast_S1100000x1_S1100000x64_0_1 : S1100000x1.BroadcastsInDim S1100000x64 (![0, 1] : Fin 2 → Fin S1100000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S1024 : S_.BroadcastsInDim S1024 (![] : Fin 0 → Fin S1024.rank)
  bcast_S100000_S100000x1_0 : S100000.BroadcastsInDim S100000x1 (![0] : Fin 1 → Fin S100000x1.rank)
  bcast_S_S1024x64 : S_.BroadcastsInDim S1024x64 (![] : Fin 0 → Fin S1024x64.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  scatter_S1024_S100000x1_S100000_n_0_0_1_wf : ScatterDims.WF S1024 S100000x1 S100000 [] [0] [0] 1
  scatter_S1024x64_S100000x1_S100000x64_1_0_0_1_wf : ScatterDims.WF S1024x64 S100000x1 S100000x64 [1] [0] [0] 1
  dot_S1024x64_S64x8_S1024x8_1_0_0_1_n_n_wf : DotDims.WF S1024x64 S64x8 S1024x8 [1] [0] [0] [1] [] []
  dot_S100000x64_S64x1_S100000x1_1_0_0_1_n_n_wf : DotDims.WF S100000x64 S64x1 S100000x1 [1] [0] [0] [1] [] []
  dot_S1024x64_S64x16_S1024x16_1_0_0_1_n_n_wf : DotDims.WF S1024x64 S64x16 S1024x16 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf

class Facts : Prop extends Facts₀ where

variable [Facts]
-- ==== Proof.Spec.lean ====
/-
  The message-passing network both programs compute, stage by stage, as functions of the argument arrays.

  Nodes carry 64 features. With `src`, `dst` the edge endpoints followed by one self loop per node, the degree of a
  node is the number of edges ending at it, `dinv = deg^(-1/2)` where the degree is positive (else 0), and an edge's
  weight is `dinv[src] * dinv[dst]`. One round of message passing (`agg`) gathers the projected features of every
  edge's source row, scales the row by the edge's weight and adds it into the edge's target row. Between rounds the
  features go through `relu (· + bias)` (`reluStep`) and a 64 × 64 projection (`denseStep` = the projection of the
  relu); the first projection is of the embedded input (`embedStep`), the last round ends in the relu alone (the node
  features returned) and in a 64 × 1 projection plus a bias (`headStep`, the per-node logit). Graph-level outputs
  average the node features over each graph (sum per graph divided by max(count, 1)) and project the averages.

  Every function is written with the host operations of the reference program, so that the reference's buffers are
  these functions by unfolding, and the kernel program's host stretches are too; what the kernel program computes
  in its four fused regions is `embedStep`, `denseStep` (twice), `reluStep` and `headStep`.
-/
import proofs.«176120_j39779987095909_1_alg».proof.Proof.Gen.ReferenceIdeal

noncomputable section

namespace Cert.GNN

open Cert.ReferenceIdeal Cert.ReferenceIdeal.Gen Idealize.ShloMosaic

variable {F : FTy → Type} [FloatOps F]

/-! ## Edge lists and edge weights (functions of the edge-index array alone) -/

/-- Row `r` of the 2 × E edge-index array followed by the node numbers 0 … N-1 (the self loops). -/
def src (e : (⟨S2x1000000, .i32⟩ : BufTy).Contents (Elt F)) : (⟨S1100000, .i32⟩ : BufTy).Contents (Elt F) :=
  concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0

def dst (e : (⟨S2x1000000, .i32⟩ : BufTy).Contents (Elt F)) : (⟨S1100000, .i32⟩ : BufTy).Contents (Elt F) :=
  concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0

/-- A list of node numbers as gather indices: a negative number counts from the end (N is added), as a column. -/
def nidx (s : (⟨S1100000, .i32⟩ : BufTy).Contents (Elt F)) : (⟨S1100000x1, .i32⟩ : BufTy).Contents (Elt F) :=
  broadcastInDim S1100000x1 ![0] bcast_S1100000_S1100000x1_0 (select (cmpi .slt s (broadcastInDim S1100000 ![] bcast_S_S1100000 (constantI S_ 32 0#32))) (addi s (broadcastInDim S1100000 ![] bcast_S_S1100000 (constantI S_ 32 100000#32))) s)

/-- The number of edges ending at each node (self loop included). -/
def deg (e : (⟨S2x1000000, .i32⟩ : BufTy).Contents (Elt F)) : (⟨S100000, .f32⟩ : BufTy).Contents (Elt F) :=
  Host.scatterAdd scatter_S100000_S1100000x1_S1100000_n_0_0_1 (broadcastInDim S100000 ![] bcast_S_S100000 (constant (F := F) S_ .f32 0x00000000#32)) (broadcastInDim S1100000x1 ![0] bcast_S1100000_S1100000x1_0 (dst e)) (broadcastInDim S1100000 ![] bcast_S_S1100000 (constant (F := F) S_ .f32 0x3F800000#32))

/-- `deg^(-1/2)` where the degree is positive, 0 elsewhere. -/
def dinv (e : (⟨S2x1000000, .i32⟩ : BufTy).Contents (Elt F)) : (⟨S100000, .f32⟩ : BufTy).Contents (Elt F) :=
  select (cmpf .ogt (deg e) (broadcastInDim S100000 ![] bcast_S_S100000 (constant (F := F) S_ .f32 0x00000000#32))) (Host.rsqrt (deg e)) (broadcastInDim S100000 ![] bcast_S_S100000 (id (constant (F := F) S_ .f32 0x00000000#32)))

/-- The weight of each edge, as a column. -/
def nrm (e : (⟨S2x1000000, .i32⟩ : BufTy).Contents (Elt F)) : (⟨S1100000x1, .f32⟩ : BufTy).Contents (Elt F) :=
  broadcastInDim S1100000x1 ![0] bcast_S1100000_S1100000x1_0 (mulf (Host.gather gather_S100000_S1100000x1_S1100000_n_0_n_n_0_1_1 (dinv e) (nidx (src e))) (Host.gather gather_S100000_S1100000x1_S1100000_n_0_n_n_0_1_1 (dinv e) (nidx (dst e))))

/-! ## One round of message passing -/

/-- Gather the source rows, scale each by its edge's weight, add into the target rows. -/
def agg (hw : (⟨S100000x64, .f32⟩ : BufTy).Contents (Elt F)) (s d : (⟨S1100000, .i32⟩ : BufTy).Contents (Elt F))
    (w : (⟨S1100000x1, .f32⟩ : BufTy).Contents (Elt F)) : (⟨S100000x64, .f32⟩ : BufTy).Contents (Elt F) :=
  Host.scatterAdd scatter_S100000x64_S1100000x1_S1100000x64_1_0_0_1 (broadcastInDim S100000x64 ![] bcast_S_S100000x64 (constant (F := F) S_ .f32 0x00000000#32)) (broadcastInDim S1100000x1 ![0] bcast_S1100000_S1100000x1_0 d) (mulf (Host.gather gather_S100000x64_S1100000x1_S1100000x64_1_0_n_n_0_1_164 hw (nidx s)) (broadcastInDim S1100000x64 ![0, 1] bcast_S1100000x1_S1100000x64_0_1 w))

/-! ## The dense steps -/

/-- A vector of 64 as a 1 × 64 row. -/
def row (v : (⟨S64, .f32⟩ : BufTy).Contents (Elt F)) : (⟨S1x64, .f32⟩ : BufTy).Contents (Elt F) :=
  broadcastInDim S1x64 ![1] bcast_S64_S1x64_1 v

/-- `relu (A + b)`, the row `b` added to every row of `A`. -/
def reluStep (A : (⟨S100000x64, .f32⟩ : BufTy).Contents (Elt F)) (b : (⟨S1x64, .f32⟩ : BufTy).Contents (Elt F)) :
    (⟨S100000x64, .f32⟩ : BufTy).Contents (Elt F) :=
  maximumf (addf A (broadcastInDim S100000x64 ![0, 1] bcast_S1x64_S100000x64_0_1 b)) (broadcastInDim S100000x64 ![] bcast_S_S100000x64 (constant (F := F) S_ .f32 0x00000000#32))

/-- `relu (A + b) · W`. -/
def denseStep (A : (⟨S100000x64, .f32⟩ : BufTy).Contents (Elt F)) (b : (⟨S1x64, .f32⟩ : BufTy).Contents (Elt F))
    (W : (⟨S64x64, .f32⟩ : BufTy).Contents (Elt F)) : (⟨S100000x64, .f32⟩ : BufTy).Contents (Elt F) :=
  Host.dotGeneral dot_S100000x64_S64x64_S100000x64_1_0_0_1_n_n none (reluStep A b) W

/-- `relu (x · We + b) · W`. -/
def embedStep (x : (⟨S100000x32, .f32⟩ : BufTy).Contents (Elt F)) (We : (⟨S32x64, .f32⟩ : BufTy).Contents (Elt F))
    (b : (⟨S1x64, .f32⟩ : BufTy).Contents (Elt F)) (W : (⟨S64x64, .f32⟩ : BufTy).Contents (Elt F)) :
    (⟨S100000x64, .f32⟩ : BufTy).Contents (Elt F) :=
  denseStep (Host.dotGeneral dot_S100000x32_S32x64_S100000x64_1_0_0_1_n_n none x We) b W

/-- `relu (A + b) · Wt + bt`, one logit per node as a column. -/
def headStep (A : (⟨S100000x64, .f32⟩ : BufTy).Contents (Elt F)) (b : (⟨S1x64, .f32⟩ : BufTy).Contents (Elt F))
    (Wt : (⟨S64x1, .f32⟩ : BufTy).Contents (Elt F)) (bt : (⟨S1x1, .f32⟩ : BufTy).Contents (Elt F)) :
    (⟨S100000x1, .f32⟩ : BufTy).Contents (Elt F) :=
  addf (Host.dotGeneral dot_S100000x64_S64x1_S100000x1_1_0_0_1_n_n none (reluStep A b) Wt) (broadcastInDim S100000x1 ![0, 1] bcast_S1x1_S100000x1_0_1 bt)

/-! ## The slices of the stacked projection weights and biases -/

def wc0 (W : (⟨S3x64x64, .f32⟩ : BufTy).Contents (Elt F)) : (⟨S64x64, .f32⟩ : BufTy).Contents (Elt F) :=
  shapeCast _ (extractStridedSlice S1x64x64 ![0, 0, 0] W slices_S3x64x64_S1x64x64_0_0_0) shapeCasts_S1x64x64_S64x64
def wc1 (W : (⟨S3x64x64, .f32⟩ : BufTy).Contents (Elt F)) : (⟨S64x64, .f32⟩ : BufTy).Contents (Elt F) :=
  shapeCast _ (extractStridedSlice S1x64x64 ![1, 0, 0] W slices_S3x64x64_S1x64x64_1_0_0) shapeCasts_S1x64x64_S64x64
def wc2 (W : (⟨S3x64x64, .f32⟩ : BufTy).Contents (Elt F)) : (⟨S64x64, .f32⟩ : BufTy).Contents (Elt F) :=
  shapeCast _ (extractStridedSlice S1x64x64 ![2, 0, 0] W slices_S3x64x64_S1x64x64_2_0_0) shapeCasts_S1x64x64_S64x64
def bc0 (b : (⟨S3x64, .f32⟩ : BufTy).Contents (Elt F)) : (⟨S64, .f32⟩ : BufTy).Contents (Elt F) :=
  shapeCast _ (extractStridedSlice S1x64 ![0, 0] b slices_S3x64_S1x64_0_0) shapeCasts_S1x64_S64
def bc1 (b : (⟨S3x64, .f32⟩ : BufTy).Contents (Elt F)) : (⟨S64, .f32⟩ : BufTy).Contents (Elt F) :=
  shapeCast _ (extractStridedSlice S1x64 ![1, 0] b slices_S3x64_S1x64_1_0) shapeCasts_S1x64_S64
def bc2 (b : (⟨S3x64, .f32⟩ : BufTy).Contents (Elt F)) : (⟨S64, .f32⟩ : BufTy).Contents (Elt F) :=
  shapeCast _ (extractStridedSlice S1x64 ![2, 0] b slices_S3x64_S1x64_2_0) shapeCasts_S1x64_S64

/-! ## The graph-level outputs -/

/-- The node features averaged over each graph: the per-graph sum divided by max(node count, 1). -/
def pooled (h : (⟨S100000x64, .f32⟩ : BufTy).Contents (Elt F)) (g : (⟨S100000, .i32⟩ : BufTy).Contents (Elt F)) :
    (⟨S1024x64, .f32⟩ : BufTy).Contents (Elt F) :=
  Host.divf (Host.scatterAdd scatter_S1024x64_S100000x1_S100000x64_1_0_0_1 (broadcastInDim S1024x64 ![] bcast_S_S1024x64 (constant (F := F) S_ .f32 0x00000000#32)) (broadcastInDim S100000x1 ![0] bcast_S100000_S100000x1_0 g) h) (broadcastInDim S1024x64 ![0, 1] bcast_S1024x1_S1024x64_0_1 (broadcastInDim S1024x1 ![0] bcast_S1024_S1024x1_0 (maximumf (Host.scatterAdd scatter_S1024_S100000x1_S100000_n_0_0_1 (broadcastInDim S1024 ![] bcast_S_S1024 (constant (F := F) S_ .f32 0x00000000#32)) (broadcastInDim S100000x1 ![0] bcast_S100000_S100000x1_0 g) (broadcastInDim S100000 ![] bcast_S_S100000 (constant (F := F) S_ .f32 0x3F800000#32))) (broadcastInDim S1024 ![] bcast_S_S1024 (constant (F := F) S_ .f32 0x3F800000#32)))))

def actHead (p : (⟨S1024x64, .f32⟩ : BufTy).Contents (Elt F)) (W : (⟨S64x8, .f32⟩ : BufTy).Contents (Elt F))
    (b : (⟨S8, .f32⟩ : BufTy).Contents (Elt F)) : (⟨S1024x8, .f32⟩ : BufTy).Contents (Elt F) :=
  addf (Host.dotGeneral dot_S1024x64_S64x8_S1024x8_1_0_0_1_n_n none p W) (broadcastInDim S1024x8 ![0, 1] bcast_S1x8_S1024x8_0_1 (broadcastInDim S1x8 ![1] bcast_S8_S1x8_1 b))

def atomHead (p : (⟨S1024x64, .f32⟩ : BufTy).Contents (Elt F)) (W : (⟨S64x16, .f32⟩ : BufTy).Contents (Elt F))
    (b : (⟨S16, .f32⟩ : BufTy).Contents (Elt F)) : (⟨S1024x16, .f32⟩ : BufTy).Contents (Elt F) :=
  addf (Host.dotGeneral dot_S1024x64_S64x16_S1024x16_1_0_0_1_n_n none p W) (broadcastInDim S1024x16 ![0, 1] bcast_S1x16_S1024x16_0_1 (broadcastInDim S1x16 ![1] bcast_S16_S1x16_1 b))

/-- A one-element vector as a 1 × 1 array. -/
def row1 (v : (⟨S1, .f32⟩ : BufTy).Contents (Elt F)) : (⟨S1x1, .f32⟩ : BufTy).Contents (Elt F) :=
  broadcastInDim S1x1 ![1] bcast_S1_S1x1_1 v

/-- A column of N as a vector of N. -/
def flat (t : (⟨S100000x1, .f32⟩ : BufTy).Contents (Elt F)) : (⟨S100000, .f32⟩ : BufTy).Contents (Elt F) :=
  shapeCast _ t shapeCasts_S100000x1_S100000

end Cert.GNN

end
-- ==== Proof.Net.lean ====
/-
  The whole network as functions of the thirteen argument arrays (x, edge_index, batch, W_emb, b_emb, W_convs, b_convs,
  W_act, b_act, W_tgt, b_tgt, W_atom, b_atom = a0 … a12), composed from the stages of Spec.lean:
    hw0 = relu(x·W_emb + b_emb)·W_convs[0];  ag_k = one round of message passing on hw_k;
    hw_{k+1} = relu(ag_k + b_convs[k])·W_convs[k+1];  hfin = relu(ag_2 + b_convs[2]);  tcol = hfin·W_tgt + b_tgt;
    the four results: the averaged features projected by W_act / W_atom plus their biases, tcol as a vector, hfin.
  Both programs' result buffers are shown equal to `out0` … `out3` of their own argument arrays.
-/
import proofs.«176120_j39779987095909_1_alg».proof.Proof.Spec

noncomputable section

namespace Cert.GNN

open Cert.ReferenceIdeal Cert.ReferenceIdeal.Gen Idealize.ShloMosaic

variable {F : FTy → Type} [FloatOps F]

def hw0 (a0 : (⟨S100000x32, .f32⟩ : BufTy).Contents (Elt F)) (a3 : (⟨S32x64, .f32⟩ : BufTy).Contents (Elt F)) (a4 : (⟨S64, .f32⟩ : BufTy).Contents (Elt F)) (a5 : (⟨S3x64x64, .f32⟩ : BufTy).Contents (Elt F)) : (⟨S100000x64, .f32⟩ : BufTy).Contents (Elt F) :=
  embedStep a0 a3 (row a4) (wc0 a5)
def ag0 (a0 : (⟨S100000x32, .f32⟩ : BufTy).Contents (Elt F)) (a1 : (⟨S2x1000000, .i32⟩ : BufTy).Contents (Elt F)) (a3 : (⟨S32x64, .f32⟩ : BufTy).Contents (Elt F)) (a4 : (⟨S64, .f32⟩ : BufTy).Contents (Elt F)) (a5 : (⟨S3x64x64, .f32⟩ : BufTy).Contents (Elt F)) : (⟨S100000x64, .f32⟩ : BufTy).Contents (Elt F) :=
  agg (hw0 a0 a3 a4 a5) (src a1) (dst a1) (nrm a1)
def hw1 (a0 : (⟨S100000x32, .f32⟩ : BufTy).Contents (Elt F)) (a1 : (⟨S2x1000000, .i32⟩ : BufTy).Contents (Elt F)) (a3 : (⟨S32x64, .f32⟩ : BufTy).Contents (Elt F)) (a4 : (⟨S64, .f32⟩ : BufTy).Contents (Elt F)) (a5 : (⟨S3x64x64, .f32⟩ : BufTy).Contents (Elt F)) (a6 : (⟨S3x64, .f32⟩ : BufTy).Contents (Elt F)) : (⟨S100000x64, .f32⟩ : BufTy).Contents (Elt F) :=
  denseStep (ag0 a0 a1 a3 a4 a5) (row (bc0 a6)) (wc1 a5)
def ag1 (a0 : (⟨S100000x32, .f32⟩ : BufTy).Contents (Elt F)) (a1 : (⟨S2x1000000, .i32⟩ : BufTy).Contents (Elt F)) (a3 : (⟨S32x64, .f32⟩ : BufTy).Contents (Elt F)) (a4 : (⟨S64, .f32⟩ : BufTy).Contents (Elt F)) (a5 : (⟨S3x64x64, .f32⟩ : BufTy).Contents (Elt F)) (a6 : (⟨S3x64, .f32⟩ : BufTy).Contents (Elt F)) : (⟨S100000x64, .f32⟩ : BufTy).Contents (Elt F) :=
  agg (hw1 a0 a1 a3 a4 a5 a6) (src a1) (dst a1) (nrm a1)
def hw2 (a0 : (⟨S100000x32, .f32⟩ : BufTy).Contents (Elt F)) (a1 : (⟨S2x1000000, .i32⟩ : BufTy).Contents (Elt F)) (a3 : (⟨S32x64, .f32⟩ : BufTy).Contents (Elt F)) (a4 : (⟨S64, .f32⟩ : BufTy).Contents (Elt F)) (a5 : (⟨S3x64x64, .f32⟩ : BufTy).Contents (Elt F)) (a6 : (⟨S3x64, .f32⟩ : BufTy).Contents (Elt F)) : (⟨S100000x64, .f32⟩ : BufTy).Contents (Elt F) :=
  denseStep (ag1 a0 a1 a3 a4 a5 a6) (row (bc1 a6)) (wc2 a5)
def ag2 (a0 : (⟨S100000x32, .f32⟩ : BufTy).Contents (Elt F)) (a1 : (⟨S2x1000000, .i32⟩ : BufTy).Contents (Elt F)) (a3 : (⟨S32x64, .f32⟩ : BufTy).Contents (Elt F)) (a4 : (⟨S64, .f32⟩ : BufTy).Contents (Elt F)) (a5 : (⟨S3x64x64, .f32⟩ : BufTy).Contents (Elt F)) (a6 : (⟨S3x64, .f32⟩ : BufTy).Contents (Elt F)) : (⟨S100000x64, .f32⟩ : BufTy).Contents (Elt F) :=
  agg (hw2 a0 a1 a3 a4 a5 a6) (src a1) (dst a1) (nrm a1)
/-- The node features returned. -/
def hfin (a0 : (⟨S100000x32, .f32⟩ : BufTy).Contents (Elt F)) (a1 : (⟨S2x1000000, .i32⟩ : BufTy).Contents (Elt F)) (a3 : (⟨S32x64, .f32⟩ : BufTy).Contents (Elt F)) (a4 : (⟨S64, .f32⟩ : BufTy).Contents (Elt F)) (a5 : (⟨S3x64x64, .f32⟩ : BufTy).Contents (Elt F)) (a6 : (⟨S3x64, .f32⟩ : BufTy).Contents (Elt F)) : (⟨S100000x64, .f32⟩ : BufTy).Contents (Elt F) :=
  reluStep (ag2 a0 a1 a3 a4 a5 a6) (row (bc2 a6))
/-- The per-node logit, as a column. -/
def tcol (a0 : (⟨S100000x32, .f32⟩ : BufTy).Contents (Elt F)) (a1 : (⟨S2x1000000, .i32⟩ : BufTy).Contents (Elt F)) (a3 : (⟨S32x64, .f32⟩ : BufTy).Contents (Elt F)) (a4 : (⟨S64, .f32⟩ : BufTy).Contents (Elt F)) (a5 : (⟨S3x64x64, .f32⟩ : BufTy).Contents (Elt F)) (a6 : (⟨S3x64, .f32⟩ : BufTy).Contents (Elt F)) (a9 : (⟨S64x1, .f32⟩ : BufTy).Contents (Elt F)) (a10 : (⟨S1, .f32⟩ : BufTy).Contents (Elt F)) : (⟨S100000x1, .f32⟩ : BufTy).Contents (Elt F) :=
  headStep (ag2 a0 a1 a3 a4 a5 a6) (row (bc2 a6)) a9 (row1 a10)

def out0 (a0 : (⟨S100000x32, .f32⟩ : BufTy).Contents (Elt F)) (a1 : (⟨S2x1000000, .i32⟩ : BufTy).Contents (Elt F)) (a2 : (⟨S100000, .i32⟩ : BufTy).Contents (Elt F)) (a3 : (⟨S32x64, .f32⟩ : BufTy).Contents (Elt F)) (a4 : (⟨S64, .f32⟩ : BufTy).Contents (Elt F)) (a5 : (⟨S3x64x64, .f32⟩ : BufTy).Contents (Elt F)) (a6 : (⟨S3x64, .f32⟩ : BufTy).Contents (Elt F)) (a7 : (⟨S64x8, .f32⟩ : BufTy).Contents (Elt F)) (a8 : (⟨S8, .f32⟩ : BufTy).Contents (Elt F)) : (⟨S1024x8, .f32⟩ : BufTy).Contents (Elt F) :=
  actHead (pooled (hfin a0 a1 a3 a4 a5 a6) a2) a7 a8
def out1 (a0 : (⟨S100000x32, .f32⟩ : BufTy).Contents (Elt F)) (a1 : (⟨S2x1000000, .i32⟩ : BufTy).Contents (Elt F)) (a3 : (⟨S32x64, .f32⟩ : BufTy).Contents (Elt F)) (a4 : (⟨S64, .f32⟩ : BufTy).Contents (Elt F)) (a5 : (⟨S3x64x64, .f32⟩ : BufTy).Contents (Elt F)) (a6 : (⟨S3x64, .f32⟩ : BufTy).Contents (Elt F)) (a9 : (⟨S64x1, .f32⟩ : BufTy).Contents (Elt F)) (a10 : (⟨S1, .f32⟩ : BufTy).Contents (Elt F)) : (⟨S100000, .f32⟩ : BufTy).Contents (Elt F) :=
  flat (tcol a0 a1 a3 a4 a5 a6 a9 a10)
def out2 (a0 : (⟨S100000x32, .f32⟩ : BufTy).Contents (Elt F)) (a1 : (⟨S2x1000000, .i32⟩ : BufTy).Contents (Elt F)) (a2 : (⟨S100000, .i32⟩ : BufTy).Contents (Elt F)) (a3 : (⟨S32x64, .f32⟩ : BufTy).Contents (Elt F)) (a4 : (⟨S64, .f32⟩ : BufTy).Contents (Elt F)) (a5 : (⟨S3x64x64, .f32⟩ : BufTy).Contents (Elt F)) (a6 : (⟨S3x64, .f32⟩ : BufTy).Contents (Elt F)) (a11 : (⟨S64x16, .f32⟩ : BufTy).Contents (Elt F)) (a12 : (⟨S16, .f32⟩ : BufTy).Contents (Elt F)) : (⟨S1024x16, .f32⟩ : BufTy).Contents (Elt F) :=
  atomHead (pooled (hfin a0 a1 a3 a4 a5 a6) a2) a11 a12

end Cert.GNN

end
-- ==== Proof.KernelValues.lean ====
/-
  The kernel program's buffers at its segment boundaries, read back to the argument arrays. The program's eleven
  segments are five stretches of host operations (the first in three pieces) and four fused regions; `W0` … `W11` of
  the generated frame are a core's buffer contents at the boundaries. A host stretch leaves every buffer it does not
  write as it was, and a region every buffer that is not one of its arrays, so the argument arrays and, once computed,
  the edge lists and edge weights are carried unchanged. Each stretch computes the matching stage of the network
  (Spec.lean, Net.lean): its operations ARE those functions, except that where the reference program spells a vector
  as a 1 × n row by a broadcast this program reshapes it (`cast_row`, `cast_row1`: the same array). Each region's
  output array is its fused step of the region's entry arrays — the four hypotheses `R0` … `R3t`, proved in the
  regions' own modules — and so the four result buffers end at `out0`, `out1`, `out2`, `hfin` of the arguments.
-/
import proofs.«176120_j39779987095909_1_alg».proof.Proof.Gen.KernelIdeal.Frame
import proofs.«176120_j39779987095909_1_alg».proof.Proof.Net
import Idealize.ShloMosaic.Lib.Pipeline.Value
import Idealize.ShloMosaic.PureOps.Ideal.Laws

set_option maxRecDepth 16384

noncomputable section

namespace Cert.GNN

open Cert.ReferenceIdeal Cert.ReferenceIdeal.Gen Idealize.ShloMosaic

variable {F : FTy → Type} [FloatOps F]

/-- A vector of 64 reshaped to 1 × 64 is the vector broadcast along a new leading unit axis: entry (0, k) is entry k. -/
theorem cast_row (v : (⟨S64, .f32⟩ : BufTy).Contents (Elt F)) (h : S64.ShapeCasts S1x64) : shapeCast S1x64 v h = row v := by
  funext j
  unfold row
  rw [broadcastInDim_apply ![1] bcast_S64_S1x64_1 v j (fun a => j a.succ) (fun a => by
    match a with
    | ⟨0, _⟩ => show (j 1).val = if (64 : Nat) = 1 then 0 else (j 1).val; rw [if_neg (by decide)])]
  exact shapeCast_addUnit_apply ![64] v h j

/-- A one-element vector reshaped to 1 × 1 is the vector broadcast along a new leading unit axis. -/
theorem cast_row1 (v : (⟨S1, .f32⟩ : BufTy).Contents (Elt F)) (h : S1.ShapeCasts S1x1) : shapeCast S1x1 v h = row1 v := by
  funext j
  unfold row1
  rw [broadcastInDim_apply ![1] bcast_S1_S1x1_1 v j (fun a => j a.succ) (fun a => by
    match a with
    | ⟨0, _⟩ => show (j 1).val = if (1 : Nat) = 1 then 0 else (j 1).val; rw [if_pos rfl]; have := (j 1).isLt; simp at this; omega)]
  exact shapeCast_addUnit_apply ![1] v h j

/-- The number of edges ending at each node, from the list of edge targets. -/
def degOf (d : (⟨S1100000, .i32⟩ : BufTy).Contents (Elt F)) : (⟨S100000, .f32⟩ : BufTy).Contents (Elt F) :=
  Host.scatterAdd scatter_S100000_S1100000x1_S1100000_n_0_0_1 (broadcastInDim S100000 ![] bcast_S_S100000 (constant (F := F) S_ .f32 0x00000000#32)) (broadcastInDim S1100000x1 ![0] bcast_S1100000_S1100000x1_0 d) (broadcastInDim S1100000 ![] bcast_S_S1100000 (constant (F := F) S_ .f32 0x3F800000#32))
/-- The edge weights from `dinv` and the two edge lists: `dinv[s] * dinv[d]`, as a column. -/
def nrmW (dv : (⟨S100000, .f32⟩ : BufTy).Contents (Elt F)) (s d : (⟨S1100000, .i32⟩ : BufTy).Contents (Elt F)) : (⟨S1100000x1, .f32⟩ : BufTy).Contents (Elt F) :=
  broadcastInDim S1100000x1 ![0] bcast_S1100000_S1100000x1_0 (mulf (Host.gather gather_S100000_S1100000x1_S1100000_n_0_n_n_0_1_1 dv (nidx s)) (Host.gather gather_S100000_S1100000x1_S1100000_n_0_n_n_0_1_1 dv (nidx d)))

end Cert.GNN

namespace Cert.KernelIdeal.Fold

open Cert.KernelIdeal Cert.KernelIdeal.Gen Idealize.ShloMosaic Idealize.ShloMosaic.TcCoe Idealize.SL.Sem
open Idealize.ShloMosaic.Pipeline (Dat)
open Cert.GNN

variable (m : (ℓ : Loc nD τ sig) → Buf (Elt Ideal) ℓ) (ρ : Dev nD → PrngReg) (c : Dev nD)

/-! ## What each segment leaves unchanged -/

/-- The argument arrays no region takes as one of its arrays before the last one. -/
abbrev carry : List (Ref sig .tc) := [main_arg2, main_arg5, main_arg6, main_arg7, main_arg8, main_arg9, main_arg10, main_arg11, main_arg12]
/-- The argument arrays read after the last region. -/
abbrev carryLast : List (Ref sig .tc) := [main_arg2, main_arg7, main_arg8, main_arg11, main_arg12]
/-- The edge lists' and the edge weights' buffers. -/
abbrev edgeRefs : List (Ref sig .tc) := [main_v3, main_v6, main_v30]

/-- The buffers `hostOps0` writes. -/
abbrev w_hostOps0 : List (Ref sig .tc) := [main_v0, main_v1, main_v2, main_v3, main_v4, main_v5, main_v6, main_cst, main_v7, main_cst_0, main_v8, main_v9, main_v10, main_cst_1, main_v11, main_v12, main_v13, main_cst_2]
theorem writes_hostOps0 : (hostOps0 : List (HloOp τ sig (Elt Ideal))).Forall fun op => op.writes ⊆ (w_hostOps0.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
theorem W1_keep (r : Ref sig .tc) (h : r ∉ w_hostOps0) : W1 m ρ c (Proc.devRef .tc r) = W0 m ρ c (Proc.devRef .tc r) :=
  StableHlo.after_of_writes_sub hostOps0 _ writes_hostOps0 h

/-- The buffers `hostOps0_1` writes. -/
abbrev w_hostOps0_1 : List (Ref sig .tc) := [main_call0_v0, main_call0_v1, main_v14]
theorem writes_hostOps0_1 : (hostOps0_1 : List (HloOp τ sig (Elt Ideal))).Forall fun op => op.writes ⊆ (w_hostOps0_1.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
theorem W2_keep (r : Ref sig .tc) (h : r ∉ w_hostOps0_1) : W2 m ρ c (Proc.devRef .tc r) = W1 m ρ c (Proc.devRef .tc r) :=
  StableHlo.after_of_writes_sub hostOps0_1 _ writes_hostOps0_1 h

/-- The buffers `hostOps0_2` writes. -/
abbrev w_hostOps0_2 : List (Ref sig .tc) := [main_c, main_v15, main_v16, main_c_3, main_v17, main_v18, main_v19, main_v20, main_v21, main_c_4, main_v22, main_v23, main_c_5, main_v24, main_v25, main_v26, main_v27, main_v28, main_v29, main_v30, main_v31, main_v32, main_v33]
theorem writes_hostOps0_2 : (hostOps0_2 : List (HloOp τ sig (Elt Ideal))).Forall fun op => op.writes ⊆ (w_hostOps0_2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
theorem W3_keep (r : Ref sig .tc) (h : r ∉ w_hostOps0_2) : W3 m ρ c (Proc.devRef .tc r) = W2 m ρ c (Proc.devRef .tc r) :=
  StableHlo.after_of_writes_sub hostOps0_2 _ writes_hostOps0_2 h

/-- The buffers `hostOps1` writes. -/
abbrev w_hostOps1 : List (Ref sig .tc) := [main_c_6, main_v35, main_v36, main_c_7, main_v37, main_v38, main_v39, main_v40, main_v41, main_v42, main_v43, main_cst_8, main_v44, main_v45, main_v46, main_v47, main_v48, main_v49, main_v50, main_v51]
theorem writes_hostOps1 : (hostOps1 : List (HloOp τ sig (Elt Ideal))).Forall fun op => op.writes ⊆ (w_hostOps1.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
theorem W5_keep (r : Ref sig .tc) (h : r ∉ w_hostOps1) : W5 m ρ c (Proc.devRef .tc r) = W4 m ρ c (Proc.devRef .tc r) :=
  StableHlo.after_of_writes_sub hostOps1 _ writes_hostOps1 h

/-- The buffers `hostOps2` writes. -/
abbrev w_hostOps2 : List (Ref sig .tc) := [main_c_9, main_v53, main_v54, main_c_10, main_v55, main_v56, main_v57, main_v58, main_v59, main_v60, main_v61, main_cst_11, main_v62, main_v63, main_v64, main_v65, main_v66, main_v67, main_v68, main_v69]
theorem writes_hostOps2 : (hostOps2 : List (HloOp τ sig (Elt Ideal))).Forall fun op => op.writes ⊆ (w_hostOps2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
theorem W7_keep (r : Ref sig .tc) (h : r ∉ w_hostOps2) : W7 m ρ c (Proc.devRef .tc r) = W6 m ρ c (Proc.devRef .tc r) :=
  StableHlo.after_of_writes_sub hostOps2 _ writes_hostOps2 h

/-- The buffers `hostOps3` writes. -/
abbrev w_hostOps3 : List (Ref sig .tc) := [main_c_12, main_v71, main_v72, main_c_13, main_v73, main_v74, main_v75, main_v76, main_v77, main_v78, main_v79, main_cst_14, main_v80, main_v81, main_v82, main_v83, main_v84, main_v85, main_v86]
theorem writes_hostOps3 : (hostOps3 : List (HloOp τ sig (Elt Ideal))).Forall fun op => op.writes ⊆ (w_hostOps3.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
theorem W9_keep (r : Ref sig .tc) (h : r ∉ w_hostOps3) : W9 m ρ c (Proc.devRef .tc r) = W8 m ρ c (Proc.devRef .tc r) :=
  StableHlo.after_of_writes_sub hostOps3 _ writes_hostOps3 h

/-- The buffers `hostOps4` writes. -/
abbrev w_hostOps4 : List (Ref sig .tc) := [main_v88, main_cst_15, main_v89, main_cst_16, main_v90, main_v91, main_v92, main_cst_17, main_v93, main_v94, main_v95, main_cst_18, main_v96, main_v97, main_v98, main_v99, main_v100, main_v101, main_v102, main_v103, main_v104, main_v105, main_v106, main_v107, main_v108]
theorem writes_hostOps4 : (hostOps4 : List (HloOp τ sig (Elt Ideal))).Forall fun op => op.writes ⊆ (w_hostOps4.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
theorem W11_keep (r : Ref sig .tc) (h : r ∉ w_hostOps4) : W11 m ρ c (Proc.devRef .tc r) = W10 m ρ c (Proc.devRef .tc r) :=
  StableHlo.after_of_writes_sub hostOps4 _ writes_hostOps4 h

theorem carry_host : ∀ r ∈ carry, r ∉ w_hostOps0 ∧ r ∉ w_hostOps0_1 ∧ r ∉ w_hostOps0_2 ∧ r ∉ w_hostOps1 ∧ r ∉ w_hostOps2 ∧ r ∉ w_hostOps3 := by decide
theorem carry_region : ∀ r ∈ carry, (∀ w, Pipeline.arrRef spec0 w ≠ r) ∧ (∀ w, Pipeline.arrRef spec1 w ≠ r) ∧ (∀ w, Pipeline.arrRef spec2 w ≠ r) := by decide
theorem edges_host : ∀ r ∈ edgeRefs, r ∉ w_hostOps1 ∧ r ∉ w_hostOps2 := by decide
theorem edges_region : ∀ r ∈ edgeRefs, (∀ w, Pipeline.arrRef spec0 w ≠ r) ∧ (∀ w, Pipeline.arrRef spec1 w ≠ r) ∧ (∀ w, Pipeline.arrRef spec2 w ≠ r) := by decide
theorem last_sub : ∀ r ∈ carryLast, r ∈ carry := by decide
theorem last_region : ∀ r ∈ carryLast, ∀ w, Pipeline.arrRef spec3 w ≠ r := by decide

theorem W3_carry (r : Ref sig .tc) (hr : r ∈ carry) : W3 m ρ c (Proc.devRef .tc r) = m ((c : Thread nD τ).loc r) :=
  (W3_keep m ρ c r (carry_host r hr).2.2.1).trans ((W2_keep m ρ c r (carry_host r hr).2.1).trans ((W1_keep m ρ c r (carry_host r hr).1).trans rfl))
theorem W4_carry (r : Ref sig .tc) (hr : r ∈ carry) : W4 m ρ c (Proc.devRef .tc r) = m ((c : Thread nD τ).loc r) :=
  (W4_of_ne m ρ c r (carry_region r hr).1).trans (W3_carry m ρ c r hr)
theorem W5_carry (r : Ref sig .tc) (hr : r ∈ carry) : W5 m ρ c (Proc.devRef .tc r) = m ((c : Thread nD τ).loc r) :=
  (W5_keep m ρ c r (carry_host r hr).2.2.2.1).trans (W4_carry m ρ c r hr)
theorem W6_carry (r : Ref sig .tc) (hr : r ∈ carry) : W6 m ρ c (Proc.devRef .tc r) = m ((c : Thread nD τ).loc r) :=
  (W6_of_ne m ρ c r (carry_region r hr).2.1).trans (W5_carry m ρ c r hr)
theorem W7_carry (r : Ref sig .tc) (hr : r ∈ carry) : W7 m ρ c (Proc.devRef .tc r) = m ((c : Thread nD τ).loc r) :=
  (W7_keep m ρ c r (carry_host r hr).2.2.2.2.1).trans (W6_carry m ρ c r hr)
theorem W8_carry (r : Ref sig .tc) (hr : r ∈ carry) : W8 m ρ c (Proc.devRef .tc r) = m ((c : Thread nD τ).loc r) :=
  (W8_of_ne m ρ c r (carry_region r hr).2.2).trans (W7_carry m ρ c r hr)
theorem W9_carry (r : Ref sig .tc) (hr : r ∈ carry) : W9 m ρ c (Proc.devRef .tc r) = m ((c : Thread nD τ).loc r) :=
  (W9_keep m ρ c r (carry_host r hr).2.2.2.2.2).trans (W8_carry m ρ c r hr)
theorem W10_carry (r : Ref sig .tc) (hr : r ∈ carryLast) : W10 m ρ c (Proc.devRef .tc r) = m ((c : Thread nD τ).loc r) :=
  (W10_of_ne m ρ c r (last_region r hr)).trans (W9_carry m ρ c r (last_sub r hr))

theorem W4_edges (r : Ref sig .tc) (hr : r ∈ edgeRefs) : W4 m ρ c (Proc.devRef .tc r) = W3 m ρ c (Proc.devRef .tc r) :=
  W4_of_ne m ρ c r (edges_region r hr).1
theorem W6_edges (r : Ref sig .tc) (hr : r ∈ edgeRefs) : W6 m ρ c (Proc.devRef .tc r) = W3 m ρ c (Proc.devRef .tc r) :=
  (W6_of_ne m ρ c r (edges_region r hr).2.1).trans ((W5_keep m ρ c r (edges_host r hr).1).trans (W4_edges m ρ c r hr))
theorem W8_edges (r : Ref sig .tc) (hr : r ∈ edgeRefs) : W8 m ρ c (Proc.devRef .tc r) = W3 m ρ c (Proc.devRef .tc r) :=
  (W8_of_ne m ρ c r (edges_region r hr).2.2).trans ((W7_keep m ρ c r (edges_host r hr).2).trans (W6_edges m ρ c r hr))

theorem W3_arg0 : W3 m ρ c (Proc.devRef .tc main_arg0) = (m ((c : Thread nD τ).loc main_arg0)) :=
  (W3_keep m ρ c main_arg0 (by decide)).trans ((W2_keep m ρ c main_arg0 (by decide)).trans ((W1_keep m ρ c main_arg0 (by decide)).trans rfl))
theorem W3_arg3 : W3 m ρ c (Proc.devRef .tc main_arg3) = (m ((c : Thread nD τ).loc main_arg3)) :=
  (W3_keep m ρ c main_arg3 (by decide)).trans ((W2_keep m ρ c main_arg3 (by decide)).trans ((W1_keep m ρ c main_arg3 (by decide)).trans rfl))

/-! ## Before the first region: the edge lists and weights, the first projection's weights, the embedding's bias row -/

set_option maxHeartbeats 4000000 in
theorem W3_v3 : W3 m ρ c (Proc.devRef .tc main_v3) = src (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results_simp
  rfl
set_option maxHeartbeats 4000000 in
theorem W3_v6 : W3 m ρ c (Proc.devRef .tc main_v6) = dst (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp
  rfl
/-! ## The edge weights, read piece by piece

The first host stretch is cut after its seventh operation (the two edge lists are then computed); its remaining
operations compute the degrees, compare them with 0 and take their inverse square roots; the second piece selects
between the two; the third gathers the result at both ends of every edge and multiplies. Each piece is read over an
arbitrary valuation, the buffers it reads kept as atoms. -/

theorem W1_split : W1 m ρ c = StableHlo.after ((hostOps0 : List (HloOp τ sig (Elt Ideal))).drop 7) (StableHlo.after ((hostOps0 : List (HloOp τ sig (Elt Ideal))).take 7) (W0 m ρ c)) := by
  show StableHlo.after hostOps0 (W0 m ρ c) = _
  rw [← StableHlo.after_append, List.take_append_drop]

set_option maxHeartbeats 400000 in
theorem head_v3 (X : Valuation τ sig (Elt Ideal)) : StableHlo.after ((hostOps0 : List (HloOp τ sig (Elt Ideal))).take 7) X (Proc.devRef .tc main_v3) = src (X (Proc.devRef .tc main_arg1)) := by
  simp only [hostOps0, List.take_succ_cons, List.take_zero]
  after_results_simp
  rfl
set_option maxHeartbeats 400000 in
theorem head_v6 (X : Valuation τ sig (Elt Ideal)) : StableHlo.after ((hostOps0 : List (HloOp τ sig (Elt Ideal))).take 7) X (Proc.devRef .tc main_v6) = dst (X (Proc.devRef .tc main_arg1)) := by
  simp only [hostOps0, List.take_succ_cons, List.take_zero]
  after_results_simp
  rfl

set_option maxHeartbeats 400000 in
theorem mid_v3 (X : Valuation τ sig (Elt Ideal)) : StableHlo.after ((hostOps0 : List (HloOp τ sig (Elt Ideal))).drop 7) X (Proc.devRef .tc main_v3) = X (Proc.devRef .tc main_v3) := by
  simp only [hostOps0, List.drop_succ_cons, List.drop_zero]
  after_results_simp
set_option maxHeartbeats 400000 in
theorem mid_v6 (X : Valuation τ sig (Elt Ideal)) : StableHlo.after ((hostOps0 : List (HloOp τ sig (Elt Ideal))).drop 7) X (Proc.devRef .tc main_v6) = X (Proc.devRef .tc main_v6) := by
  simp only [hostOps0, List.drop_succ_cons, List.drop_zero]
  after_results_simp
set_option maxHeartbeats 400000 in
theorem mid_v12 (X : Valuation τ sig (Elt Ideal)) : StableHlo.after ((hostOps0 : List (HloOp τ sig (Elt Ideal))).drop 7) X (Proc.devRef .tc main_v12) = cmpf .ogt (degOf (X (Proc.devRef .tc main_v6))) (broadcastInDim S100000 ![] bcast_S_S100000 (constant (F := Ideal) S_ .f32 0x00000000#32)) := by
  simp only [hostOps0, List.drop_succ_cons, List.drop_zero]
  after_results_simp
  rfl
set_option maxHeartbeats 400000 in
theorem mid_v13 (X : Valuation τ sig (Elt Ideal)) : StableHlo.after ((hostOps0 : List (HloOp τ sig (Elt Ideal))).drop 7) X (Proc.devRef .tc main_v13) = Host.rsqrt (degOf (X (Proc.devRef .tc main_v6))) := by
  simp only [hostOps0, List.drop_succ_cons, List.drop_zero]
  after_results_simp
  rfl
set_option maxHeartbeats 400000 in
theorem mid_cst_2 (X : Valuation τ sig (Elt Ideal)) : StableHlo.after ((hostOps0 : List (HloOp τ sig (Elt Ideal))).drop 7) X (Proc.devRef .tc main_cst_2) = constant (F := Ideal) S_ .f32 0x00000000#32 := by
  simp only [hostOps0, List.drop_succ_cons, List.drop_zero]
  after_results_simp

set_option maxHeartbeats 400000 in
/-- The select between `rsqrt(deg)` and 0. -/
theorem where_v14 (X : Valuation τ sig (Elt Ideal)) : StableHlo.after hostOps0_1 X (Proc.devRef .tc main_v14) = select (X (Proc.devRef .tc main_v12)) (X (Proc.devRef .tc main_v13)) (broadcastInDim S100000 ![] bcast_S_S100000 (id (X (Proc.devRef .tc main_cst_2)))) := by
  simp only [hostOps0_1]
  after_results_simp
  simp only [StableHlo.TRef.ofBuf, StableHlo.TRef.toBuf, cast_eq]

set_option maxHeartbeats 1000000 in
/-- The two gathers and their product, as a column. -/
theorem last_v30 (X : Valuation τ sig (Elt Ideal)) : StableHlo.after hostOps0_2 X (Proc.devRef .tc main_v30) = nrmW (X (Proc.devRef .tc main_v14)) (X (Proc.devRef .tc main_v3)) (X (Proc.devRef .tc main_v6)) := by
  simp only [hostOps0_2]
  after_results_simp
  rfl

/-- The edge weights `dinv[src] * dinv[dst]`, as a column. -/
theorem W3_v30 : W3 m ρ c (Proc.devRef .tc main_v30) = nrm (m ((c : Thread nD τ).loc main_arg1)) := by
  show StableHlo.after hostOps0_2 (StableHlo.after hostOps0_1 (W1 m ρ c)) (Proc.devRef .tc main_v30) = _
  rw [last_v30, where_v14, StableHlo.after_of_writes_sub hostOps0_1 _ writes_hostOps0_1 (show main_v3 ∉ w_hostOps0_1 by decide),
    StableHlo.after_of_writes_sub hostOps0_1 _ writes_hostOps0_1 (show main_v6 ∉ w_hostOps0_1 by decide),
    W1_split, mid_v12, mid_v13, mid_cst_2, mid_v3, mid_v6, head_v3, head_v6]
  rfl

set_option maxHeartbeats 4000000 in
theorem W3_v32 : W3 m ρ c (Proc.devRef .tc main_v32) = wc0 (m ((c : Thread nD τ).loc main_arg5)) := by
  show StableHlo.after hostOps0_2 (StableHlo.after hostOps0_1 (StableHlo.after hostOps0 (W0 m ρ c))) (Proc.devRef .tc main_v32) = _
  simp only [hostOps0, hostOps0_1, hostOps0_2]
  after_results_simp
  rfl
set_option maxHeartbeats 4000000 in
theorem W3_v33 : W3 m ρ c (Proc.devRef .tc main_v33) = row (m ((c : Thread nD τ).loc main_arg4)) := by
  show StableHlo.after hostOps0_2 (StableHlo.after hostOps0_1 (StableHlo.after hostOps0 (W0 m ρ c))) (Proc.devRef .tc main_v33) = _
  simp only [hostOps0, hostOps0_1, hostOps0_2]
  after_results_simp
  exact cast_row _ _

/-! ## The regions' array equations (proved in the regions' own modules) -/

section Regions

variable
  (R0 : ∀ (V : (c : Dev nD) → (b : Ref sig .tc) → Buf (Elt Ideal) ((c : Thread nD τ).loc b)) (c : Dev nD), (dat0 (F := Ideal) V c).arrAt 4 cfg0.N = embedStep (F := Ideal) (V c main_arg0) (V c main_arg3) (V c main_v33) (V c main_v32))
  (R1 : ∀ (V : (c : Dev nD) → (b : Ref sig .tc) → Buf (Elt Ideal) ((c : Thread nD τ).loc b)) (c : Dev nD), (dat1 (F := Ideal) V c).arrAt 3 cfg1.N = denseStep (F := Ideal) (V c main_v46) (V c main_v51) (V c main_v50))
  (R2 : ∀ (V : (c : Dev nD) → (b : Ref sig .tc) → Buf (Elt Ideal) ((c : Thread nD τ).loc b)) (c : Dev nD), (dat2 (F := Ideal) V c).arrAt 3 cfg2.N = denseStep (F := Ideal) (V c main_v64) (V c main_v69) (V c main_v68))
  (R3h : ∀ (V : (c : Dev nD) → (b : Ref sig .tc) → Buf (Elt Ideal) ((c : Thread nD τ).loc b)) (c : Dev nD), (dat3 (F := Ideal) V c).arrAt 4 cfg3.N = reluStep (F := Ideal) (V c main_v82) (V c main_v85))
  (R3t : ∀ (V : (c : Dev nD) → (b : Ref sig .tc) → Buf (Elt Ideal) ((c : Thread nD τ).loc b)) (c : Dev nD), (dat3 (F := Ideal) V c).arrAt 5 cfg3.N = headStep (F := Ideal) (V c main_v82) (V c main_v85) (V c main_arg9) (V c main_v86))

include R0 in
/-- After region 0: the embedded input projected. -/
theorem W4_v34 : W4 m ρ c (Proc.devRef .tc main_v34) = hw0 (m ((c : Thread nD τ).loc main_arg0)) (m ((c : Thread nD τ).loc main_arg3)) (m ((c : Thread nD τ).loc main_arg4)) (m ((c : Thread nD τ).loc main_arg5)) :=
  (W4_arr m ρ c 4).trans ((R0 (V3 m ρ) c).trans (by
    show embedStep (W3 m ρ c (Proc.devRef .tc main_arg0)) (W3 m ρ c (Proc.devRef .tc main_arg3)) (W3 m ρ c (Proc.devRef .tc main_v33)) (W3 m ρ c (Proc.devRef .tc main_v32)) = _
    rw [W3_arg0 m ρ c, W3_arg3 m ρ c, W3_v33 m ρ c, W3_v32 m ρ c]
    rfl))

include R0 in
/-- The first round of message passing. -/
theorem W5_v46 : W5 m ρ c (Proc.devRef .tc main_v46) = ag0 (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W4 m ρ c) (Proc.devRef .tc main_v46) = _
  simp only [hostOps1]
  after_results_simp
  rw [W4_v34 m ρ c R0, W4_edges m ρ c main_v3 (by decide), W4_edges m ρ c main_v6 (by decide), W4_edges m ρ c main_v30 (by decide), W3_v3 m ρ c, W3_v6 m ρ c, W3_v30 m ρ c]
  rfl
theorem W5_v51 : W5 m ρ c (Proc.devRef .tc main_v51) = row (bc0 (m ((c : Thread nD τ).loc main_arg6))) := by
  show StableHlo.after hostOps1 (W4 m ρ c) (Proc.devRef .tc main_v51) = _
  simp only [hostOps1]
  after_results_simp
  rw [W4_carry m ρ c main_arg6 (by decide)]
  exact cast_row _ _
theorem W5_v50 : W5 m ρ c (Proc.devRef .tc main_v50) = wc1 (m ((c : Thread nD τ).loc main_arg5)) := by
  show StableHlo.after hostOps1 (W4 m ρ c) (Proc.devRef .tc main_v50) = _
  simp only [hostOps1]
  after_results_simp
  rw [W4_carry m ρ c main_arg5 (by decide)]
  rfl

include R0 R1 in
theorem W6_v52 : W6 m ρ c (Proc.devRef .tc main_v52) = hw1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W6_arr m ρ c 3).trans ((R1 (V5 m ρ) c).trans (by
    show denseStep (W5 m ρ c (Proc.devRef .tc main_v46)) (W5 m ρ c (Proc.devRef .tc main_v51)) (W5 m ρ c (Proc.devRef .tc main_v50)) = _
    rw [W5_v46 m ρ c R0, W5_v51 m ρ c, W5_v50 m ρ c]
    rfl))

include R0 R1 in
/-- The second round. -/
theorem W7_v64 : W7 m ρ c (Proc.devRef .tc main_v64) = ag1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2 (W6 m ρ c) (Proc.devRef .tc main_v64) = _
  simp only [hostOps2]
  after_results_simp
  rw [W6_v52 m ρ c R0 R1, W6_edges m ρ c main_v3 (by decide), W6_edges m ρ c main_v6 (by decide), W6_edges m ρ c main_v30 (by decide), W3_v3 m ρ c, W3_v6 m ρ c, W3_v30 m ρ c]
  rfl
theorem W7_v69 : W7 m ρ c (Proc.devRef .tc main_v69) = row (bc1 (m ((c : Thread nD τ).loc main_arg6))) := by
  show StableHlo.after hostOps2 (W6 m ρ c) (Proc.devRef .tc main_v69) = _
  simp only [hostOps2]
  after_results_simp
  rw [W6_carry m ρ c main_arg6 (by decide)]
  exact cast_row _ _
theorem W7_v68 : W7 m ρ c (Proc.devRef .tc main_v68) = wc2 (m ((c : Thread nD τ).loc main_arg5)) := by
  show StableHlo.after hostOps2 (W6 m ρ c) (Proc.devRef .tc main_v68) = _
  simp only [hostOps2]
  after_results_simp
  rw [W6_carry m ρ c main_arg5 (by decide)]
  rfl

include R0 R1 R2 in
theorem W8_v70 : W8 m ρ c (Proc.devRef .tc main_v70) = hw2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W8_arr m ρ c 3).trans ((R2 (V7 m ρ) c).trans (by
    show denseStep (W7 m ρ c (Proc.devRef .tc main_v64)) (W7 m ρ c (Proc.devRef .tc main_v69)) (W7 m ρ c (Proc.devRef .tc main_v68)) = _
    rw [W7_v64 m ρ c R0 R1, W7_v69 m ρ c, W7_v68 m ρ c]
    rfl))

include R0 R1 R2 in
/-- The third round. -/
theorem W9_v82 : W9 m ρ c (Proc.devRef .tc main_v82) = ag2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps3 (W8 m ρ c) (Proc.devRef .tc main_v82) = _
  simp only [hostOps3]
  after_results_simp
  rw [W8_v70 m ρ c R0 R1 R2, W8_edges m ρ c main_v3 (by decide), W8_edges m ρ c main_v6 (by decide), W8_edges m ρ c main_v30 (by decide), W3_v3 m ρ c, W3_v6 m ρ c, W3_v30 m ρ c]
  rfl
theorem W9_v85 : W9 m ρ c (Proc.devRef .tc main_v85) = row (bc2 (m ((c : Thread nD τ).loc main_arg6))) := by
  show StableHlo.after hostOps3 (W8 m ρ c) (Proc.devRef .tc main_v85) = _
  simp only [hostOps3]
  after_results_simp
  rw [W8_carry m ρ c main_arg6 (by decide)]
  exact cast_row _ _
theorem W9_v86 : W9 m ρ c (Proc.devRef .tc main_v86) = row1 (m ((c : Thread nD τ).loc main_arg10)) := by
  show StableHlo.after hostOps3 (W8 m ρ c) (Proc.devRef .tc main_v86) = _
  simp only [hostOps3]
  after_results_simp
  rw [W8_carry m ρ c main_arg10 (by decide)]
  exact cast_row1 _ _

include R0 R1 R2 R3h in
/-- After the last region: the node features. -/
theorem W10_v87_0 : W10 m ρ c (Proc.devRef .tc main_v87_0) = hfin (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W10_arr m ρ c 4).trans ((R3h (V9 m ρ) c).trans (by
    show reluStep (W9 m ρ c (Proc.devRef .tc main_v82)) (W9 m ρ c (Proc.devRef .tc main_v85)) = _
    rw [W9_v82 m ρ c R0 R1 R2, W9_v85 m ρ c]
    rfl))

include R0 R1 R2 R3t in
/-- After the last region: the per-node logits, as a column. -/
theorem W10_v87_1 : W10 m ρ c (Proc.devRef .tc main_v87_1) = tcol (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  (W10_arr m ρ c 5).trans ((R3t (V9 m ρ) c).trans (by
    show headStep (W9 m ρ c (Proc.devRef .tc main_v82)) (W9 m ρ c (Proc.devRef .tc main_v85)) (W9 m ρ c (Proc.devRef .tc main_arg9)) (W9 m ρ c (Proc.devRef .tc main_v86)) = _
    rw [W9_v82 m ρ c R0 R1 R2, W9_v85 m ρ c, W9_carry m ρ c main_arg9 (by decide), W9_v86 m ρ c]
    rfl))

/-! ## The four results -/

include R0 R1 R2 R3h in
theorem W11_v87_0 : W11 m ρ c (Proc.devRef .tc main_v87_0) = hfin (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W11_keep m ρ c main_v87_0 (by decide)).trans (W10_v87_0 m ρ c R0 R1 R2 R3h)

include R0 R1 R2 R3t in
theorem W11_v88 : W11 m ρ c (Proc.devRef .tc main_v88) = out1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  show StableHlo.after hostOps4 (W10 m ρ c) (Proc.devRef .tc main_v88) = _
  simp only [hostOps4]
  after_results_simp
  rw [W10_v87_1 m ρ c R0 R1 R2 R3t]
  rfl

include R0 R1 R2 R3h in
set_option maxHeartbeats 2000000 in
theorem W11_v104 : W11 m ρ c (Proc.devRef .tc main_v104) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 (W10 m ρ c) (Proc.devRef .tc main_v104) = _
  simp only [hostOps4]
  after_results_simp
  rw [W10_v87_0 m ρ c R0 R1 R2 R3h, W10_carry m ρ c main_arg2 (by decide), W10_carry m ρ c main_arg7 (by decide), W10_carry m ρ c main_arg8 (by decide)]
  rfl

include R0 R1 R2 R3h in
set_option maxHeartbeats 2000000 in
theorem W11_v108 : W11 m ρ c (Proc.devRef .tc main_v108) = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) := by
  show StableHlo.after hostOps4 (W10 m ρ c) (Proc.devRef .tc main_v108) = _
  simp only [hostOps4]
  after_results_simp
  rw [W10_v87_0 m ρ c R0 R1 R2 R3h, W10_carry m ρ c main_arg2 (by decide), W10_carry m ρ c main_arg11 (by decide), W10_carry m ρ c main_arg12 (by decide)]
  rfl

end Regions

end Cert.KernelIdeal.Fold

end
-- ==== Proof.ReferenceValues.lean ====
/-
  The reference program's buffers after its run, read stretch by stretch. The 155 operations are cut into nine
  stretches; `valK V0` is a core's buffer contents after the first K of them from contents `V0`. A stretch leaves
  every buffer it does not write as it was (`valK_keep`), so the argument arrays (`valK_arg`) and, once computed, the
  edge lists and the edge weights (`valK_edges`) are carried unchanged; the buffer each stretch computes is the
  matching stage of the network (Spec.lean, Net.lean) of the argument arrays: the operations ARE those functions, so
  each equation is the stretch's composed term against the definition unfolded.
-/
import proofs.«176120_j39779987095909_1_alg».proof.Proof.ReferenceFold
import proofs.«176120_j39779987095909_1_alg».proof.Proof.Net
import Idealize.ShloMosaic.Lib.Pipeline.Frame

set_option maxRecDepth 8192

noncomputable section

namespace Cert.ReferenceIdeal.Fold

open Cert.ReferenceIdeal Cert.ReferenceIdeal.Gen Idealize.ShloMosaic Idealize.ShloMosaic.TcCoe Idealize.SL.Sem Idealize.ShloMosaic.StableHlo
open Cert.GNN

variable {F : FTy → Type} [FloatOps F]
variable (V0 : Valuation τ sig (Elt F))

/-- The argument arrays' buffers. -/
abbrev argRefs : List (Ref sig .tc) := [main_arg0, main_arg1, main_arg2, main_arg3, main_arg4, main_arg5, main_arg6, main_arg7, main_arg8, main_arg9, main_arg10, main_arg11, main_arg12]
/-- The edge lists' and the edge weights' buffers. -/
abbrev edgeRefs : List (Ref sig .tc) := [main_v3, main_v6, main_v30]

/-- The buffer contents after the first 1 stretch. -/
def val1 : Valuation τ sig (Elt F) := after ops0 V0
/-- The buffers stretch 0 writes. -/
abbrev w0 : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29, main_v30]
theorem writes0 : (ops0 : List (HloOp τ sig (Elt F))).Forall fun op => op.writes ⊆ (w0.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val1_keep (r : Ref sig .tc) (h : r ∉ w0) : val1 V0 (Proc.devRef .tc r) = V0 (Proc.devRef .tc r) :=
  after_of_writes_sub ops0 _ writes0 h
theorem args_w0 : ∀ r ∈ argRefs, r ∉ w0 := by decide
theorem val1_arg (r : Ref sig .tc) (hr : r ∈ argRefs) : val1 V0 (Proc.devRef .tc r) = V0 (Proc.devRef .tc r) :=
  (val1_keep V0 r (args_w0 r hr))

/-- The buffer contents after the first 2 stretches. -/
def val2 : Valuation τ sig (Elt F) := after ops1 (val1 V0)
/-- The buffers stretch 1 writes. -/
abbrev w1 : List (Ref sig .tc) := [main_v31, main_v32, main_v33, main_v34, main_call1_cst, main_call1_v0, main_v35, main_v36, main_v37, main_v38]
theorem writes1 : (ops1 : List (HloOp τ sig (Elt F))).Forall fun op => op.writes ⊆ (w1.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val2_keep (r : Ref sig .tc) (h : r ∉ w1) : val2 V0 (Proc.devRef .tc r) = val1 V0 (Proc.devRef .tc r) :=
  after_of_writes_sub ops1 _ writes1 h
theorem args_w1 : ∀ r ∈ argRefs, r ∉ w1 := by decide
theorem val2_arg (r : Ref sig .tc) (hr : r ∈ argRefs) : val2 V0 (Proc.devRef .tc r) = V0 (Proc.devRef .tc r) :=
  (val2_keep V0 r (args_w1 r hr)).trans (val1_arg V0 r hr)
theorem edges_w1 : ∀ r ∈ edgeRefs, r ∉ w1 := by decide
theorem val2_edges (r : Ref sig .tc) (hr : r ∈ edgeRefs) : val2 V0 (Proc.devRef .tc r) = val1 V0 (Proc.devRef .tc r) :=
  (val2_keep V0 r (edges_w1 r hr))

/-- The buffer contents after the first 3 stretches. -/
def val3 : Valuation τ sig (Elt F) := after ops2 (val2 V0)
/-- The buffers stretch 2 writes. -/
abbrev w2 : List (Ref sig .tc) := [main_c_6, main_v39, main_v40, main_c_7, main_v41, main_v42, main_v43, main_v44, main_v45, main_v46, main_v47, main_cst_8, main_v48, main_v49, main_v50]
theorem writes2 : (ops2 : List (HloOp τ sig (Elt F))).Forall fun op => op.writes ⊆ (w2.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val3_keep (r : Ref sig .tc) (h : r ∉ w2) : val3 V0 (Proc.devRef .tc r) = val2 V0 (Proc.devRef .tc r) :=
  after_of_writes_sub ops2 _ writes2 h
theorem args_w2 : ∀ r ∈ argRefs, r ∉ w2 := by decide
theorem val3_arg (r : Ref sig .tc) (hr : r ∈ argRefs) : val3 V0 (Proc.devRef .tc r) = V0 (Proc.devRef .tc r) :=
  (val3_keep V0 r (args_w2 r hr)).trans (val2_arg V0 r hr)
theorem edges_w2 : ∀ r ∈ edgeRefs, r ∉ w2 := by decide
theorem val3_edges (r : Ref sig .tc) (hr : r ∈ edgeRefs) : val3 V0 (Proc.devRef .tc r) = val1 V0 (Proc.devRef .tc r) :=
  (val3_keep V0 r (edges_w2 r hr)).trans (val2_edges V0 r hr)

/-- The buffer contents after the first 4 stretches. -/
def val4 : Valuation τ sig (Elt F) := after ops3 (val3 V0)
/-- The buffers stretch 3 writes. -/
abbrev w3 : List (Ref sig .tc) := [main_v51, main_v52, main_v53, main_v54, main_v55, main_call2_cst, main_call2_v0, main_v56, main_v57, main_v58, main_v59]
theorem writes3 : (ops3 : List (HloOp τ sig (Elt F))).Forall fun op => op.writes ⊆ (w3.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val4_keep (r : Ref sig .tc) (h : r ∉ w3) : val4 V0 (Proc.devRef .tc r) = val3 V0 (Proc.devRef .tc r) :=
  after_of_writes_sub ops3 _ writes3 h
theorem args_w3 : ∀ r ∈ argRefs, r ∉ w3 := by decide
theorem val4_arg (r : Ref sig .tc) (hr : r ∈ argRefs) : val4 V0 (Proc.devRef .tc r) = V0 (Proc.devRef .tc r) :=
  (val4_keep V0 r (args_w3 r hr)).trans (val3_arg V0 r hr)
theorem edges_w3 : ∀ r ∈ edgeRefs, r ∉ w3 := by decide
theorem val4_edges (r : Ref sig .tc) (hr : r ∈ edgeRefs) : val4 V0 (Proc.devRef .tc r) = val1 V0 (Proc.devRef .tc r) :=
  (val4_keep V0 r (edges_w3 r hr)).trans (val3_edges V0 r hr)

/-- The buffer contents after the first 5 stretches. -/
def val5 : Valuation τ sig (Elt F) := after ops4 (val4 V0)
/-- The buffers stretch 4 writes. -/
abbrev w4 : List (Ref sig .tc) := [main_c_9, main_v60, main_v61, main_c_10, main_v62, main_v63, main_v64, main_v65, main_v66, main_v67, main_v68, main_cst_11, main_v69, main_v70, main_v71]
theorem writes4 : (ops4 : List (HloOp τ sig (Elt F))).Forall fun op => op.writes ⊆ (w4.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val5_keep (r : Ref sig .tc) (h : r ∉ w4) : val5 V0 (Proc.devRef .tc r) = val4 V0 (Proc.devRef .tc r) :=
  after_of_writes_sub ops4 _ writes4 h
theorem args_w4 : ∀ r ∈ argRefs, r ∉ w4 := by decide
theorem val5_arg (r : Ref sig .tc) (hr : r ∈ argRefs) : val5 V0 (Proc.devRef .tc r) = V0 (Proc.devRef .tc r) :=
  (val5_keep V0 r (args_w4 r hr)).trans (val4_arg V0 r hr)
theorem edges_w4 : ∀ r ∈ edgeRefs, r ∉ w4 := by decide
theorem val5_edges (r : Ref sig .tc) (hr : r ∈ edgeRefs) : val5 V0 (Proc.devRef .tc r) = val1 V0 (Proc.devRef .tc r) :=
  (val5_keep V0 r (edges_w4 r hr)).trans (val4_edges V0 r hr)

/-- The buffer contents after the first 6 stretches. -/
def val6 : Valuation τ sig (Elt F) := after ops5 (val5 V0)
/-- The buffers stretch 5 writes. -/
abbrev w5 : List (Ref sig .tc) := [main_v72, main_v73, main_v74, main_v75, main_v76, main_call3_cst, main_call3_v0, main_v77, main_v78, main_v79, main_v80]
theorem writes5 : (ops5 : List (HloOp τ sig (Elt F))).Forall fun op => op.writes ⊆ (w5.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val6_keep (r : Ref sig .tc) (h : r ∉ w5) : val6 V0 (Proc.devRef .tc r) = val5 V0 (Proc.devRef .tc r) :=
  after_of_writes_sub ops5 _ writes5 h
theorem args_w5 : ∀ r ∈ argRefs, r ∉ w5 := by decide
theorem val6_arg (r : Ref sig .tc) (hr : r ∈ argRefs) : val6 V0 (Proc.devRef .tc r) = V0 (Proc.devRef .tc r) :=
  (val6_keep V0 r (args_w5 r hr)).trans (val5_arg V0 r hr)
theorem edges_w5 : ∀ r ∈ edgeRefs, r ∉ w5 := by decide
theorem val6_edges (r : Ref sig .tc) (hr : r ∈ edgeRefs) : val6 V0 (Proc.devRef .tc r) = val1 V0 (Proc.devRef .tc r) :=
  (val6_keep V0 r (edges_w5 r hr)).trans (val5_edges V0 r hr)

/-- The buffer contents after the first 7 stretches. -/
def val7 : Valuation τ sig (Elt F) := after ops6 (val6 V0)
/-- The buffers stretch 6 writes. -/
abbrev w6 : List (Ref sig .tc) := [main_c_12, main_v81, main_v82, main_c_13, main_v83, main_v84, main_v85, main_v86, main_v87, main_v88, main_v89, main_cst_14, main_v90, main_v91, main_v92]
theorem writes6 : (ops6 : List (HloOp τ sig (Elt F))).Forall fun op => op.writes ⊆ (w6.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val7_keep (r : Ref sig .tc) (h : r ∉ w6) : val7 V0 (Proc.devRef .tc r) = val6 V0 (Proc.devRef .tc r) :=
  after_of_writes_sub ops6 _ writes6 h
theorem args_w6 : ∀ r ∈ argRefs, r ∉ w6 := by decide
theorem val7_arg (r : Ref sig .tc) (hr : r ∈ argRefs) : val7 V0 (Proc.devRef .tc r) = V0 (Proc.devRef .tc r) :=
  (val7_keep V0 r (args_w6 r hr)).trans (val6_arg V0 r hr)
theorem edges_w6 : ∀ r ∈ edgeRefs, r ∉ w6 := by decide
theorem val7_edges (r : Ref sig .tc) (hr : r ∈ edgeRefs) : val7 V0 (Proc.devRef .tc r) = val1 V0 (Proc.devRef .tc r) :=
  (val7_keep V0 r (edges_w6 r hr)).trans (val6_edges V0 r hr)

/-- The buffer contents after the first 8 stretches. -/
def val8 : Valuation τ sig (Elt F) := after ops7 (val7 V0)
/-- The buffers stretch 7 writes. -/
abbrev w7 : List (Ref sig .tc) := [main_v93, main_v94, main_v95, main_v96, main_v97, main_call4_cst, main_call4_v0, main_v98]
theorem writes7 : (ops7 : List (HloOp τ sig (Elt F))).Forall fun op => op.writes ⊆ (w7.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val8_keep (r : Ref sig .tc) (h : r ∉ w7) : val8 V0 (Proc.devRef .tc r) = val7 V0 (Proc.devRef .tc r) :=
  after_of_writes_sub ops7 _ writes7 h
theorem args_w7 : ∀ r ∈ argRefs, r ∉ w7 := by decide
theorem val8_arg (r : Ref sig .tc) (hr : r ∈ argRefs) : val8 V0 (Proc.devRef .tc r) = V0 (Proc.devRef .tc r) :=
  (val8_keep V0 r (args_w7 r hr)).trans (val7_arg V0 r hr)

/-- The buffer contents after the first 9 stretches. -/
def val9 : Valuation τ sig (Elt F) := after ops8 (val8 V0)
/-- The buffers stretch 8 writes. -/
abbrev w8 : List (Ref sig .tc) := [main_cst_15, main_v99, main_cst_16, main_v100, main_v101, main_v102, main_cst_17, main_v103, main_v104, main_v105, main_cst_18, main_v106, main_v107, main_v108, main_v109, main_v110, main_v111, main_v112, main_v113, main_v114, main_v115, main_v116, main_v117, main_v118, main_v119, main_v120, main_v121, main_v122, main_v123]
theorem writes8 : (ops8 : List (HloOp τ sig (Elt F))).Forall fun op => op.writes ⊆ (w8.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val9_keep (r : Ref sig .tc) (h : r ∉ w8) : val9 V0 (Proc.devRef .tc r) = val8 V0 (Proc.devRef .tc r) :=
  after_of_writes_sub ops8 _ writes8 h
theorem args_w8 : ∀ r ∈ argRefs, r ∉ w8 := by decide
theorem val9_arg (r : Ref sig .tc) (hr : r ∈ argRefs) : val9 V0 (Proc.devRef .tc r) = V0 (Proc.devRef .tc r) :=
  (val9_keep V0 r (args_w8 r hr)).trans (val8_arg V0 r hr)

/-- The fold over all 155 operations is the last stage. -/
theorem after_ops : after ops V0 = val9 V0 := by
  simp only [ops, StableHlo.after_append]
  rfl

/-! ## What each stretch computes -/

set_option maxHeartbeats 4000000 in
/-- The edge sources: row 0 of the edge-index array followed by the node numbers. -/
theorem val1_v3 : val1 V0 (Proc.devRef .tc main_v3) = src (V0 (Proc.devRef .tc main_arg1)) := by
  unfold val1
  simp only [ops0]
  after_results_simp
  rfl
set_option maxHeartbeats 4000000 in
/-- The edge targets: row 1 followed by the node numbers. -/
theorem val1_v6 : val1 V0 (Proc.devRef .tc main_v6) = dst (V0 (Proc.devRef .tc main_arg1)) := by
  unfold val1
  simp only [ops0]
  after_results_simp
  rfl
set_option maxHeartbeats 4000000 in
/-- The edge weights `dinv[src] * dinv[dst]`, as a column. -/
theorem val1_v30 : val1 V0 (Proc.devRef .tc main_v30) = nrm (V0 (Proc.devRef .tc main_arg1)) := by
  unfold val1
  simp only [ops0]
  after_results_simp
  rfl

/-- The embedded input projected: `relu(x·W_emb + b_emb)·W_convs[0]`. -/
theorem val2_v38 : val2 V0 (Proc.devRef .tc main_v38) = hw0 (V0 (Proc.devRef .tc main_arg0)) (V0 (Proc.devRef .tc main_arg3)) (V0 (Proc.devRef .tc main_arg4)) (V0 (Proc.devRef .tc main_arg5)) := by
  unfold val2
  simp only [ops1]
  after_results_simp
  rw [val1_arg V0 main_arg0 (by decide), val1_arg V0 main_arg3 (by decide), val1_arg V0 main_arg4 (by decide), val1_arg V0 main_arg5 (by decide)]
  rfl

/-- The first round of message passing. -/
theorem val3_v50 : val3 V0 (Proc.devRef .tc main_v50) = ag0 (V0 (Proc.devRef .tc main_arg0)) (V0 (Proc.devRef .tc main_arg1)) (V0 (Proc.devRef .tc main_arg3)) (V0 (Proc.devRef .tc main_arg4)) (V0 (Proc.devRef .tc main_arg5)) := by
  unfold val3
  simp only [ops2]
  after_results_simp
  rw [val2_v38, val2_edges V0 main_v3 (by decide), val2_edges V0 main_v6 (by decide), val2_edges V0 main_v30 (by decide), val1_v3, val1_v6, val1_v30]
  rfl

theorem val4_v59 : val4 V0 (Proc.devRef .tc main_v59) = hw1 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold val4
  simp only [ops3]
  after_results_simp
  rw [val3_v50, val3_arg V0 main_arg5 (by decide), val3_arg V0 main_arg6 (by decide)]
  rfl

/-- The second round. -/
theorem val5_v71 : val5 V0 (Proc.devRef .tc main_v71) = ag1 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold val5
  simp only [ops4]
  after_results_simp
  rw [val4_v59, val4_edges V0 main_v3 (by decide), val4_edges V0 main_v6 (by decide), val4_edges V0 main_v30 (by decide), val1_v3, val1_v6, val1_v30]
  rfl

theorem val6_v80 : val6 V0 (Proc.devRef .tc main_v80) = hw2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold val6
  simp only [ops5]
  after_results_simp
  rw [val5_v71, val5_arg V0 main_arg5 (by decide), val5_arg V0 main_arg6 (by decide)]
  rfl

/-- The third round. -/
theorem val7_v92 : val7 V0 (Proc.devRef .tc main_v92) = ag2 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold val7
  simp only [ops6]
  after_results_simp
  rw [val6_v80, val6_edges V0 main_v3 (by decide), val6_edges V0 main_v6 (by decide), val6_edges V0 main_v30 (by decide), val1_v3, val1_v6, val1_v30]
  rfl

/-- The node features returned. -/
theorem val8_v98 : val8 V0 (Proc.devRef .tc main_v98) = hfin (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold val8
  simp only [ops7]
  after_results_simp
  rw [val7_v92, val7_arg V0 main_arg6 (by decide)]
  rfl

/-! ## The four results -/

theorem val9_v98 : val9 V0 (Proc.devRef .tc main_v98) = hfin (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) :=
  (val9_keep V0 main_v98 (by decide)).trans (val8_v98 V0)

set_option maxHeartbeats 2000000 in
theorem val9_v114 : val9 V0 (Proc.devRef .tc main_v114) = out0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val9
  simp only [ops8]
  after_results_simp
  rw [val8_v98, val8_arg V0 main_arg2 (by decide), val8_arg V0 main_arg7 (by decide), val8_arg V0 main_arg8 (by decide)]
  rfl

set_option maxHeartbeats 2000000 in
theorem val9_v119 : val9 V0 (Proc.devRef .tc main_v119) = out1 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg9)) (V0 (Proc.devRef .tc main_arg10)) := by
  unfold val9
  simp only [ops8]
  after_results_simp
  rw [val8_v98, val8_arg V0 main_arg9 (by decide), val8_arg V0 main_arg10 (by decide)]
  rfl

set_option maxHeartbeats 2000000 in
theorem val9_v123 : val9 V0 (Proc.devRef .tc main_v123) = out2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg11)) (V0 (Proc.devRef .tc main_arg12)) := by
  unfold val9
  simp only [ops8]
  after_results_simp
  rw [val8_v98, val8_arg V0 main_arg2 (by decide), val8_arg V0 main_arg11 (by decide), val8_arg V0 main_arg12 (by decide)]
  rfl

end Cert.ReferenceIdeal.Fold

end
-- ==== Proof.ReferenceResults.lean ====
/-
  The reference program's run with its results read: every weakly fair execution terminates, the four result
  buffers hold `out0`, `out1`, `out2` and `hfin` (Net.lean) of the argument arrays as launched, and the argument
  arrays are unchanged. The run leaves every buffer at the fold of the 155 operations over the launch contents
  (ReferenceFold.lean); the fold is the ninth stage (ReferenceValues.lean), whose buffers are those functions.
-/
import proofs.«176120_j39779987095909_1_alg».proof.Proof.ReferenceValues

noncomputable section

namespace Cert.ReferenceIdeal.Fold

open Cert.ReferenceIdeal Cert.ReferenceIdeal.Gen Idealize.ShloMosaic Idealize.ShloMosaic.TcCoe Idealize.SL.Sem Idealize.ShloMosaic.StableHlo
open Cert.GNN

variable {F : FTy → Type} [FloatOps F]

theorem run_results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v119) = out1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10))
      ∧ r.2.mem ((c.tc : Thread nD τ).loc main_v123) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12))
      ∧ r.2.mem ((c.tc : Thread nD τ).loc main_v98) = hfin (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c =>
    ⟨(h c main_v114).trans ((congrFun (after_ops (launchContents m c)) _).trans (val9_v114 (launchContents m c))),
     (h c main_v119).trans ((congrFun (after_ops (launchContents m c)) _).trans (val9_v119 (launchContents m c))),
     (h c main_v123).trans ((congrFun (after_ops (launchContents m c)) _).trans (val9_v123 (launchContents m c))),
     (h c main_v98).trans ((congrFun (after_ops (launchContents m c)) _).trans (val9_v98 (launchContents m c))),
     (h c main_arg0).trans ((congrFun (after_ops (launchContents m c)) _).trans (val9_arg (launchContents m c) main_arg0 (by decide))),
     (h c main_arg1).trans ((congrFun (after_ops (launchContents m c)) _).trans (val9_arg (launchContents m c) main_arg1 (by decide))),
     (h c main_arg2).trans ((congrFun (after_ops (launchContents m c)) _).trans (val9_arg (launchContents m c) main_arg2 (by decide))),
     (h c main_arg3).trans ((congrFun (after_ops (launchContents m c)) _).trans (val9_arg (launchContents m c) main_arg3 (by decide))),
     (h c main_arg4).trans ((congrFun (after_ops (launchContents m c)) _).trans (val9_arg (launchContents m c) main_arg4 (by decide))),
     (h c main_arg5).trans ((congrFun (after_ops (launchContents m c)) _).trans (val9_arg (launchContents m c) main_arg5 (by decide))),
     (h c main_arg6).trans ((congrFun (after_ops (launchContents m c)) _).trans (val9_arg (launchContents m c) main_arg6 (by decide))),
     (h c main_arg7).trans ((congrFun (after_ops (launchContents m c)) _).trans (val9_arg (launchContents m c) main_arg7 (by decide))),
     (h c main_arg8).trans ((congrFun (after_ops (launchContents m c)) _).trans (val9_arg (launchContents m c) main_arg8 (by decide))),
     (h c main_arg9).trans ((congrFun (after_ops (launchContents m c)) _).trans (val9_arg (launchContents m c) main_arg9 (by decide))),
     (h c main_arg10).trans ((congrFun (after_ops (launchContents m c)) _).trans (val9_arg (launchContents m c) main_arg10 (by decide))),
     (h c main_arg11).trans ((congrFun (after_ops (launchContents m c)) _).trans (val9_arg (launchContents m c) main_arg11 (by decide))),
     (h c main_arg12).trans ((congrFun (after_ops (launchContents m c)) _).trans (val9_arg (launchContents m c) main_arg12 (by decide)))⟩)
    (run_fold m ρ)

end Cert.ReferenceIdeal.Fold

end
-- ==== Proof.Region0.lean ====
/-
  Region 0 of the kernel program (the first fused region: the embedding, bias, relu and the first projection), read as
  one function of the arrays the region finds at its entry.

  The region walks 20 blocks of 5000 rows. At each block it multiplies the block of 32 input features by the 32 × 64
  embedding weights, adds the 1 × 64 bias row to every row, takes the maximum with 0 and multiplies the result by the
  64 × 64 projection. The output is row-blocked like the input, so block t of the output is the same function of the
  entry arrays restricted to rows 5000 t … 5000 t + 4999, and the 20 blocks cover all 100000 rows. At the ideal values
  the changes of format before each product are the identity and a product into a zero accumulator is the plain sum
  over the contracted coordinate, the same sum the host's product is: at an element both sides are the 64-term sum
  of the relu'd 32-term sums against the projection.
-/
import proofs.«176120_j39779987095909_1_alg».proof.Proof.Gen.KernelIdeal.Frame
import proofs.«176120_j39779987095909_1_alg».proof.Proof.Spec
import Idealize.ShloMosaic.Lib.Pipeline.Value
import Idealize.ShloMosaic.Lib.ValueIdx
import Idealize.ShloMosaic.PureOps.Ideal.Laws

noncomputable section
namespace Cert.KernelIdeal.Region0
open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The reference's bias-and-relu at an element. -/
theorem reluStep_apply (A : S100000x64.Idx → Elt Ideal .f32) (b : S1x64.Idx → Elt Ideal .f32) (r : Fin 100000) (q : Fin 64) :
    Cert.GNN.reluStep (F := Ideal) A b (ix2 r q) = max (A (ix2 r q) + b (ix2 0 q)) (Ideal.ofBits .f32 0x00000000#32) := by
  unfold Cert.GNN.reluStep
  rw [maximumf_apply, addf_apply]
  rw [broadcastInDim_apply _ _ b (ix2 r q) (ix2 0 q) (fun a => by
    match a with
    | ⟨0, _⟩ => rfl
    | ⟨1, _⟩ => rfl)]
  rfl

/-! ## A product contracted on one axis, at an element -/

/-- A product of an m × k by a k × n matrix whose dimension numbers contract the left operand's columns against the right
    operand's rows: at output (a, b) and contraction position c the operands are read at (a, c) and (c, b). -/
theorem dot_idx {m k n : Nat} (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
        ((contrEquiv1 (⟨[1], [0], [0], [1], [], [], w⟩ : DotDims ⟨2, ![m, k]⟩ ⟨2, ![k, n]⟩ ⟨2, ![m, n]⟩) k rfl rfl).symm c) = ix2 a c
    ∧ (⟨[1], [0], [0], [1], [], [], w⟩ : DotDims ⟨2, ![m, k]⟩ ⟨2, ![k, n]⟩ ⟨2, ![m, n]⟩).rhsIdx (ix2 a b)
        ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val (⟨[1], [0], [0], [1], [], [], w⟩ : DotDims ⟨2, ![m, k]⟩ ⟨2, ![k, n]⟩ ⟨2, ![m, n]⟩) k rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; exact c2
    | ⟨1, _⟩ => simp [DotDims.rhsIdx]; rfl

/-- Such a product on the matrix unit into a zero accumulator, at an element: the sum over the contracted coordinate. -/
theorem matmul_zero_apply {m k n : Nat} {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  obtain ⟨l2, r2⟩ := dot_idx w a b c
  rw [l2, r2]

/-- The same product as the host computes it, at an element: the same sum. -/
theorem dotGeneral_apply' {m k n : Nat} {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  obtain ⟨l2, r2⟩ := dot_idx w a b c
  rw [l2, r2]

/-- The payload at an element: the 64-term sum, against the projection, of the relu of the 32-term embedding sums plus bias. -/
theorem pay_apply (x0 : Vec Ideal S5000x32 .f32) (x1 : Vec Ideal S32x64 .f32) (x2 : Vec Ideal S1x64 .f32) (x3 : Vec Ideal S64x64 .f32)
    (p : Fin 5000) (q : Fin 64) :
    k0_pay1 x0 x1 x2 x3 (ix2 p q)
      = ∑ k : Fin 64, max ((∑ l : Fin 32, x0 (ix2 p l) * x1 (ix2 l k)) + x2 (ix2 0 k)) (Ideal.ofBits .f32 0x00000000#32) * x3 (ix2 k q) := by
  unfold k0_pay1
  refine (matmul_zero_apply dot_S5000x64_S64x64_S5000x64_1_0_0_1_n_n_wf none _ _ p q).trans ?_
  refine Finset.sum_congr rfl fun k _ => ?_
  rw [truncf_apply, truncf_apply, shapeCast_self, maximumf_apply, addf_apply, broadcast_apply, shapeCast_self]
  rw [broadcastTo_apply x2 broadcasts_S1x64_S5000x64 (ix2 p k) (ix2 0 k) (fun a => by
    match a with
    | ⟨0, _⟩ => rfl
    | ⟨1, _⟩ => rfl)]
  refine congrArg (fun s => max (s + x2 (ix2 0 k)) _ * x3 (ix2 k q)) ?_
  refine (matmul_zero_apply dot_S5000x32_S32x64_S5000x64_1_0_0_1_n_n_wf none _ _ p k).trans ?_
  exact Finset.sum_congr rfl fun l _ => by rw [truncf_apply, truncf_apply]

/-- The reference's bias, relu and projection at an element. -/
theorem denseStep_apply (A : S100000x64.Idx → Elt Ideal .f32) (b : S1x64.Idx → Elt Ideal .f32) (W : S64x64.Idx → Elt Ideal .f32)
    (r : Fin 100000) (q : Fin 64) :
    Cert.GNN.denseStep (F := Ideal) A b W (ix2 r q)
      = ∑ k : Fin 64, max (A (ix2 r k) + b (ix2 0 k)) (Ideal.ofBits .f32 0x00000000#32) * W (ix2 k q) := by
  unfold Cert.GNN.denseStep
  refine (dotGeneral_apply' _ none _ _ r q).trans ?_
  exact Finset.sum_congr rfl fun k _ => by rw [reluStep_apply]

/-- The reference's embedding, bias, relu and projection at an element. -/
theorem embedStep_apply (x : S100000x32.Idx → Elt Ideal .f32) (We : S32x64.Idx → Elt Ideal .f32) (b : S1x64.Idx → Elt Ideal .f32)
    (W : S64x64.Idx → Elt Ideal .f32) (r : Fin 100000) (q : Fin 64) :
    Cert.GNN.embedStep (F := Ideal) x We b W (ix2 r q)
      = ∑ k : Fin 64, max ((∑ l : Fin 32, x (ix2 r l) * We (ix2 l k)) + b (ix2 0 k)) (Ideal.ofBits .f32 0x00000000#32) * W (ix2 k q) := by
  unfold Cert.GNN.embedStep
  rw [denseStep_apply]
  refine Finset.sum_congr rfl fun k _ => ?_
  refine congrArg (fun s => max (s + b (ix2 0 k)) _ * W (ix2 k q)) ?_
  exact dotGeneral_apply' _ none x We r k

/-! ## From the blocks to the array -/

/-- The block indices of the region's windows at every point: the row-blocked windows (the input features and the
    output) are at block (t, 0), the embedding weights, the bias row and the projection at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 20 := by
  have h : t.val < cfg0.N := t.isLt
  have hN : cfg0.N = 20 := N_0
  omega

/-- The input-feature window's block at point t is rows 5000 t … 5000 t + 4999 of the input features. -/
theorem iblk0_apply (c : Dev nD) (t : Fin cfg0.N) (p : Fin 5000) (l : Fin 32) (h : t.val * 5000 + p.val < 100000) :
    (iblk0 V c 0 t : Vec Ideal S5000x32 .f32) (ix2 p l)
      = (V c main_arg0 : S100000x32.Idx → Elt Ideal .f32) (ix2 ⟨t.val * 5000 + p.val, h⟩ l) := by
  obtain ⟨e00, e01, -⟩ := idx_facts t
  unfold iblk0
  rw [View.read_apply]
  show V c main_arg0 _ = V c main_arg0 _
  congr 1
  funext a; apply Fin.ext
  match a with
  | ⟨0, _⟩ => show win0_0.index t 0 * 5000 + 1 * p.val = t.val * 5000 + p.val; rw [e00]; omega
  | ⟨1, _⟩ => show win0_0.index t 1 * 32 + 1 * l.val = l.val; rw [e01]; omega

/-- The embedding-weight window's block is the 32 × 64 weights at every point. -/
theorem iblk1_apply (c : Dev nD) (t : Fin cfg0.N) (l : Fin 32) (k : Fin 64) :
    (iblk0 V c 1 t : Vec Ideal S32x64 .f32) (ix2 l k) = (V c main_arg3 : S32x64.Idx → Elt Ideal .f32) (ix2 l k) := by
  obtain ⟨-, -, e10, e11, -⟩ := idx_facts t
  unfold iblk0
  rw [View.read_apply]
  show V c main_arg3 _ = V c main_arg3 _
  congr 1
  funext a; apply Fin.ext
  match a with
  | ⟨0, _⟩ => show win0_1.index t 0 * 32 + 1 * l.val = l.val; rw [e10]; omega
  | ⟨1, _⟩ => show win0_1.index t 1 * 64 + 1 * k.val = k.val; rw [e11]; omega

/-- The bias window's block is the bias row at every point. -/
theorem iblk2_apply (c : Dev nD) (t : Fin cfg0.N) (k : Fin 64) :
    (iblk0 V c 2 t : Vec Ideal S1x64 .f32) (ix2 0 k) = (V c main_v33 : S1x64.Idx → Elt Ideal .f32) (ix2 0 k) := by
  obtain ⟨-, -, -, -, e20, e21, -⟩ := idx_facts t
  unfold iblk0
  rw [View.read_apply]
  show V c main_v33 _ = V c main_v33 _
  congr 1
  funext a; apply Fin.ext
  match a with
  | ⟨0, _⟩ => show win0_2.index t 0 * 1 + 1 * 0 = 0; rw [e20]
  | ⟨1, _⟩ => show win0_2.index t 1 * 64 + 1 * k.val = k.val; rw [e21]; omega

/-- The projection window's block is the 64 × 64 projection at every point. -/
theorem iblk3_apply (c : Dev nD) (t : Fin cfg0.N) (k : Fin 64) (q : Fin 64) :
    (iblk0 V c 3 t : Vec Ideal S64x64 .f32) (ix2 k q) = (V c main_v32 : S64x64.Idx → Elt Ideal .f32) (ix2 k q) := by
  obtain ⟨-, -, -, -, -, -, e30, e31, -⟩ := idx_facts t
  unfold iblk0
  rw [View.read_apply]
  show V c main_v32 _ = V c main_v32 _
  congr 1
  funext a; apply Fin.ext
  match a with
  | ⟨0, _⟩ => show win0_3.index t 0 * 64 + 1 * k.val = k.val; rw [e30]; omega
  | ⟨1, _⟩ => show win0_3.index t 1 * 64 + 1 * q.val = q.val; rw [e31]; omega

/-- What point t writes back is block t of the embedding step of the entry arrays. -/
theorem flushed_eq (c : Dev nD) (t : Fin cfg0.N) :
    (dat0 (F := Ideal) V c).flushed 4 t = ((cfg0.win 4).blk t).view.read (Elt Ideal)
      (Cert.GNN.embedStep (F := Ideal) (V c main_arg0) (V c main_arg3) (V c main_v33) (V c main_v32)) := by
  show (cfg0.win 4).cut (grid0.coords t) ((dat0 V c).after 4 t) = _
  rw [after0_4]
  unfold out0_4
  rw [View.canon_unit_zero hz]
  simp only [View.ld_unit_zero (S := S5000x32) hz, View.ld_unit_zero (S := S32x64) hz, View.ld_unit_zero (S := S1x64) hz,
    View.ld_unit_zero (S := S64x64) hz]
  have ht := point_lt t
  obtain ⟨-, -, -, -, -, -, -, -, e40, e41⟩ := idx_facts t
  funext j
  rw [View.read_apply]
  show k0_pay1 (iblk0 V c 0 t) (iblk0 V c 1 t) (iblk0 V c 2 t) (iblk0 V c 3 t) j
    = Cert.GNN.embedStep (F := Ideal) (V c main_arg0) (V c main_arg3) (V c main_v33) (V c main_v32) (((cfg0.win 4).blk t).view.emb j)
  obtain ⟨p, q, rfl⟩ : ∃ (p : Fin 5000) (q : Fin 64), j = ix2 p q := ⟨j 0, j 1, eq_ix2 j⟩
  have hp := p.isLt
  have hemb : ((cfg0.win 4).blk t).view.emb (ix2 p q) = (ix2 ⟨t.val * 5000 + p.val, by omega⟩ q : S100000x64.Idx) := by
    funext a; apply Fin.ext
    match a with
    | ⟨0, _⟩ => show win0_4.index t 0 * 5000 + 1 * p.val = t.val * 5000 + p.val; rw [e40]; omega
    | ⟨1, _⟩ => show win0_4.index t 1 * 64 + 1 * q.val = q.val; rw [e41]; omega
  rw [hemb]
  refine (pay_apply _ _ _ _ p q).trans ?_
  refine Eq.trans ?_ (embedStep_apply _ _ _ _ _ q).symm
  refine Finset.sum_congr rfl fun k _ => ?_
  rw [iblk2_apply V c t k, iblk3_apply V c t k q]
  refine congrArg (fun s => max (s + (V c main_v33 : S1x64.Idx → Elt Ideal .f32) (ix2 0 k)) _ * (V c main_v32 : S64x64.Idx → Elt Ideal .f32) (ix2 k q)) ?_
  refine Finset.sum_congr rfl fun l _ => ?_
  rw [iblk0_apply V c t p l (by omega), iblk1_apply V c t l k]

/-- An index of the output is in point t's block iff each coordinate is in the block's range on its axis. -/
theorem mem_blk (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v34).slice (win0_4.rect t)).set ↔ _
  rw [View.set_slice_whole, Rect.mem_set_unit]
  exact Iff.rfl

/-- Every row r of the output lies in the block of point r / 5000. -/
theorem cover (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  let t : Fin cfg0.N := ⟨(i 0).val / 5000, by omega⟩
  have htv : t.val = (i 0).val / 5000 := rfl
  obtain ⟨-, -, -, -, -, -, -, -, e40, e41⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; rw [e40, htv]; omega
  | ⟨1, _⟩ => show win0_4.index t (1 : Fin 2) * 64 ≤ (i 1).val ∧ (i 1).val < win0_4.index t (1 : Fin 2) * 64 + 64; rw [e41]; omega

/-- The output after the region: the embedding, bias, relu and projection of the entry arrays. -/
theorem array0 (c : Dev nD) :
    (dat0 (F := Ideal) V c).arrAt 4 cfg0.N = Cert.GNN.embedStep (F := Ideal) (V c main_arg0) (V c main_arg3) (V c main_v33) (V c main_v32) :=
  (dat0 (F := Ideal) V c).arrAt_eq_of_cover 4 (Cert.GNN.embedStep (F := Ideal) (V c main_arg0) (V c main_arg3) (V c main_v33) (V c main_v32))
    (fun t _ => flushed_eq V c t) cover

end Cert.KernelIdeal.Region0
end
-- ==== Proof.Region1.lean ====
/-
  Region 1 of the kernel program: one dense step of the message-passing network.

  The region's grid has 20 points; point t stages rows 5000 t … 5000 t + 4999 of the 100000 × 64 feature array,
  the whole 1 × 64 bias row and the whole 64 × 64 projection matrix, and writes back rows 5000 t … 5000 t + 4999
  of the result. The body computes, for row p and column q of its block,
      ∑ k < 64, max (x[p, k] + b[0, k], 0) · W[k, q]
  (the changes of float format are the identity on the extended reals, and the product into a zero accumulator is
  the plain sum). The dense step `relu (A + b) · W` of the whole arrays, read at row r and column q, is the same sum
  with A's row r. Row p of block t is row 5000 t + p of the array, so what each point writes back is its block of
  the dense step, and the 20 blocks cover the array: the array after the region is the dense step of the arrays
  the region was entered with.
-/
import proofs.«176120_j39779987095909_1_alg».proof.Proof.Gen.KernelIdeal.Frame
import proofs.«176120_j39779987095909_1_alg».proof.Proof.Spec
import Idealize.ShloMosaic.Lib.Pipeline.Value
import Idealize.ShloMosaic.Lib.ValueIdx
import Idealize.ShloMosaic.PureOps.Ideal.Laws

noncomputable section
namespace Cert.KernelIdeal.Region1
open Cert.KernelIdeal Cert.KernelIdeal.Gen Idealize.ShloMosaic Idealize.ShloMosaic.TcCoe Idealize.SL.Sem
open Idealize.ShloMosaic.Pipeline (Dat)
open Idealize.ShloMosaic.ValueIdx

/-- relu of the sum, elementwise on the extended reals. -/
def act (a b : EReal) : EReal := max (a + b) (Ideal.ofBits .f32 0x00000000#32)

/-! ## The two sides at an index -/

/-- The body's block at row p, column q: the sum over the 64 features of relu(x0 + bias row) times the projection. -/
theorem pay_apply (x0 : Vec Ideal S5000x64 .f32) (x1 : Vec Ideal S1x64 .f32) (x2 : Vec Ideal S64x64 .f32)
    (p : Fin 5000) (q : Fin 64) :
    k1_pay1 (F := Ideal) x0 x1 x2 (ix2 p q)
      = ∑ k : Fin 64, act (x0 (ix2 p k)) (x1 (ix2 (0 : Fin 1) k)) * x2 (ix2 k q) := by
  unfold k1_pay1
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have ck := contrEquiv1_symm_val dot_S5000x64_S64x64_S5000x64_1_0_0_1_n_n 64 rfl rfl k
  have hl : dot_S5000x64_S64x64_S5000x64_1_0_0_1_n_n.lhsIdx (ix2 p q)
      ((contrEquiv1 dot_S5000x64_S64x64_S5000x64_1_0_0_1_n_n 64 rfl rfl).symm k) = ix2 p k := by
    funext ax; apply Fin.ext
    match ax with
    | ⟨0, _⟩ => simp [DotDims.lhsIdx, dot_S5000x64_S64x64_S5000x64_1_0_0_1_n_n]; rfl
    | ⟨1, _⟩ => simp [DotDims.lhsIdx, dot_S5000x64_S64x64_S5000x64_1_0_0_1_n_n]; exact ck
  have hr : dot_S5000x64_S64x64_S5000x64_1_0_0_1_n_n.rhsIdx (ix2 p q)
      ((contrEquiv1 dot_S5000x64_S64x64_S5000x64_1_0_0_1_n_n 64 rfl rfl).symm k) = ix2 k q := by
    funext ax; apply Fin.ext
    match ax with
    | ⟨0, _⟩ => simp [DotDims.rhsIdx, dot_S5000x64_S64x64_S5000x64_1_0_0_1_n_n]; exact ck
    | ⟨1, _⟩ => simp [DotDims.rhsIdx, dot_S5000x64_S64x64_S5000x64_1_0_0_1_n_n]; rfl
  rw [hl, hr]
  simp only [shapeCast_self]
  have hb : broadcastTo S5000x64 x1 broadcasts_S1x64_S5000x64 (ix2 p k) = x1 (ix2 (0 : Fin 1) k) :=
    broadcastTo_apply x1 broadcasts_S1x64_S5000x64 (ix2 p k) (ix2 (0 : Fin 1) k)
      (fun a => by match a with | ⟨0, _⟩ => rfl | ⟨1, _⟩ => rfl)
  show max (x0 (ix2 p k) + broadcastTo S5000x64 x1 broadcasts_S1x64_S5000x64 (ix2 p k)) (Ideal.ofBits .f32 0x00000000#32)
      * x2 (ix2 k q) = _
  rw [hb]
  rfl

/-- The dense step at row r, column q: the same sum over the 64 features, of the whole arrays. -/
theorem dense_apply (A : (⟨Cert.ReferenceIdeal.S100000x64, .f32⟩ : BufTy).Contents (Elt Ideal))
    (b : (⟨Cert.ReferenceIdeal.S1x64, .f32⟩ : BufTy).Contents (Elt Ideal))
    (W : (⟨Cert.ReferenceIdeal.S64x64, .f32⟩ : BufTy).Contents (Elt Ideal)) (r : Fin 100000) (q : Fin 64) :
    Cert.GNN.denseStep (F := Ideal) A b W (ix2 r q)
      = ∑ k : Fin 64, act (A (ix2 r k)) (b (ix2 (0 : Fin 1) k)) * W (ix2 k q) := by
  unfold Cert.GNN.denseStep
  show FloatOps.dotGeneral Cert.ReferenceIdeal.dot_S100000x64_S64x64_S100000x64_1_0_0_1_n_n none _ (Cert.GNN.reluStep A b) W (ix2 r q) = _
  rw [Ideal.dotGeneral_apply,
    ← Equiv.sum_comp (contrEquiv1 Cert.ReferenceIdeal.dot_S100000x64_S64x64_S100000x64_1_0_0_1_n_n 64 rfl rfl).symm]
  refine Finset.sum_congr rfl fun k _ => ?_
  have ck := contrEquiv1_symm_val Cert.ReferenceIdeal.dot_S100000x64_S64x64_S100000x64_1_0_0_1_n_n 64 rfl rfl k
  have hl : Cert.ReferenceIdeal.dot_S100000x64_S64x64_S100000x64_1_0_0_1_n_n.lhsIdx (ix2 r q)
      ((contrEquiv1 Cert.ReferenceIdeal.dot_S100000x64_S64x64_S100000x64_1_0_0_1_n_n 64 rfl rfl).symm k) = ix2 r k := by
    funext ax; apply Fin.ext
    match ax with
    | ⟨0, _⟩ => simp [DotDims.lhsIdx, Cert.ReferenceIdeal.dot_S100000x64_S64x64_S100000x64_1_0_0_1_n_n]; rfl
    | ⟨1, _⟩ => simp [DotDims.lhsIdx, Cert.ReferenceIdeal.dot_S100000x64_S64x64_S100000x64_1_0_0_1_n_n]; exact ck
  have hr : Cert.ReferenceIdeal.dot_S100000x64_S64x64_S100000x64_1_0_0_1_n_n.rhsIdx (ix2 r q)
      ((contrEquiv1 Cert.ReferenceIdeal.dot_S100000x64_S64x64_S100000x64_1_0_0_1_n_n 64 rfl rfl).symm k) = ix2 k q := by
    funext ax; apply Fin.ext
    match ax with
    | ⟨0, _⟩ => simp [DotDims.rhsIdx, Cert.ReferenceIdeal.dot_S100000x64_S64x64_S100000x64_1_0_0_1_n_n]; exact ck
    | ⟨1, _⟩ => simp [DotDims.rhsIdx, Cert.ReferenceIdeal.dot_S100000x64_S64x64_S100000x64_1_0_0_1_n_n]; rfl
  rw [hl, hr]
  unfold Cert.GNN.reluStep
  have hb : broadcastInDim Cert.ReferenceIdeal.S100000x64 ![0, 1] Cert.ReferenceIdeal.Gen.bcast_S1x64_S100000x64_0_1 b (ix2 r k)
      = b (ix2 (0 : Fin 1) k) :=
    broadcastInDim_apply _ _ b (ix2 r k) (ix2 (0 : Fin 1) k) (fun a => by match a with | ⟨0, _⟩ => rfl | ⟨1, _⟩ => rfl)
  have hc : broadcastInDim Cert.ReferenceIdeal.S100000x64 ![] Cert.ReferenceIdeal.Gen.bcast_S_S100000x64
      (constant (F := Ideal) Cert.ReferenceIdeal.S_ .f32 0x00000000#32) (ix2 r k) = Ideal.ofBits .f32 0x00000000#32 :=
    broadcastInDim_apply _ _ _ (ix2 r k) ix0 (fun a => a.elim0)
  show max (A (ix2 r k) + broadcastInDim Cert.ReferenceIdeal.S100000x64 ![0, 1] Cert.ReferenceIdeal.Gen.bcast_S1x64_S100000x64_0_1 b (ix2 r k))
      (broadcastInDim Cert.ReferenceIdeal.S100000x64 ![] Cert.ReferenceIdeal.Gen.bcast_S_S100000x64
        (constant (F := Ideal) Cert.ReferenceIdeal.S_ .f32 0x00000000#32) (ix2 r k)) * W (ix2 k q) = _
  rw [hb, hc]
  rfl

/-! ## The blocks of the windows -/

variable (V : (c : Dev nD) → (b : Ref sig .tc) → Buf (Elt Ideal) ((c : Thread nD τ).loc b))

theorem hz : (![0, 0] : Fin 2 → Nat) = fun _ => 0 := funext fun a => by fin_cases a <;> rfl

/-- The block index of each window at point t: the row-blocked windows (the features in, the result out) sit at
    block row t, the bias row and the projection matrix are one whole block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the feature block at point t is row 5000 t + p of the array. -/
theorem blk0_apply (c : Dev nD) (t : Fin cfg1.N) (p : Fin 5000) (k : Fin 64) (r : Fin 100000)
    (hr : r.val = t.val * 5000 + p.val) :
    (iblk1 (F := Ideal) V c 0 t : Vec Ideal S5000x64 .f32) (ix2 p k) = V c main_v46 (ix2 r k) := by
  obtain ⟨e0, e1, -⟩ := idx_facts t
  show V c main_v46 (((cfg1.win 0).blk t).view.emb (ix2 p k)) = V c main_v46 (ix2 r k)
  refine congrArg (V c main_v46) (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- The bias row's block is the whole row. -/
theorem blk1_apply (c : Dev nD) (t : Fin cfg1.N) (k : Fin 64) :
    (iblk1 (F := Ideal) V c 1 t : Vec Ideal S1x64 .f32) (ix2 (0 : Fin 1) k) = V c main_v51 (ix2 (0 : Fin 1) k) := by
  obtain ⟨-, -, e2, e3, -⟩ := idx_facts t
  show V c main_v51 (((cfg1.win 1).blk t).view.emb (ix2 (0 : Fin 1) k)) = V c main_v51 (ix2 (0 : Fin 1) k)
  refine congrArg (V c main_v51) (funext fun a => Fin.ext ?_)
  match a with
  | ⟨0, _⟩ => show win1_1.index t (0 : Fin 2) * 1 + 1 * 0 = 0; omega
  | ⟨1, _⟩ => show win1_1.index t (1 : Fin 2) * 64 + 1 * k.val = k.val; omega

/-- The projection matrix's block is the whole matrix. -/
theorem blk2_apply (c : Dev nD) (t : Fin cfg1.N) (k q : Fin 64) :
    (iblk1 (F := Ideal) V c 2 t : Vec Ideal S64x64 .f32) (ix2 k q) = V c main_v50 (ix2 k q) := by
  obtain ⟨-, -, -, -, e4, e5, -⟩ := idx_facts t
  show V c main_v50 (((cfg1.win 2).blk t).view.emb (ix2 k q)) = V c main_v50 (ix2 k q)
  refine congrArg (V c main_v50) (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

/-! ## From the blocks to the array -/

/-- The dense step at an index named by its coordinates. -/
theorem dense_at (A : (⟨Cert.ReferenceIdeal.S100000x64, .f32⟩ : BufTy).Contents (Elt Ideal))
    (b : (⟨Cert.ReferenceIdeal.S1x64, .f32⟩ : BufTy).Contents (Elt Ideal))
    (W : (⟨Cert.ReferenceIdeal.S64x64, .f32⟩ : BufTy).Contents (Elt Ideal))
    (i : (⟨2, ![100000, 64]⟩ : Shape).Idx) (r : Fin 100000) (q : Fin 64) (h0 : (i 0).val = r.val) (h1 : (i 1).val = q.val) :
    Cert.GNN.denseStep (F := Ideal) A b W i
      = ∑ k : Fin 64, act (A (ix2 r k)) (b (ix2 (0 : Fin 1) k)) * W (ix2 k q) := by
  obtain rfl : i = ix2 r q := funext fun a => Fin.ext (by match a with | ⟨0, _⟩ => exact h0 | ⟨1, _⟩ => exact h1)
  exact dense_apply A b W r q

/-- What point t writes back is block t of the dense step of the region's entry arrays. -/
theorem flushed_eq (c : Dev nD) (t : Fin cfg1.N) :
    (dat1 (F := Ideal) V c).flushed 3 t = ((cfg1.win 3).blk t).view.read (Elt Ideal)
      (Cert.GNN.denseStep (F := Ideal) (V c main_v46) (V c main_v51) (V c main_v50)) := by
  show (cfg1.win 3).cut (grid1.coords t) ((dat1 (F := Ideal) V c).after 3 t) = _
  rw [after1_3]
  unfold out1_3
  rw [View.canon_unit_zero hz]
  simp only [View.ld_unit_zero (S := S5000x64) hz, View.ld_unit_zero (S := S1x64) hz, View.ld_unit_zero (S := S64x64) hz]
  obtain ⟨-, -, -, -, -, -, e6, e7⟩ := idx_facts t
  have hN : grid1.N = 20 := N_1
  have ht : t.val < 20 := lt_of_lt_of_eq t.isLt hN
  funext j
  obtain ⟨p, q, rfl⟩ : ∃ (p : Fin 5000) (q : Fin 64), j = ix2 p q := ⟨j 0, j 1, eq_ix2 j⟩
  have hr : t.val * 5000 + p.val < 100000 := by have := p.isLt; omega
  show k1_pay1 (F := Ideal) (iblk1 V c 0 t) (iblk1 V c 1 t) (iblk1 V c 2 t) (ix2 p q)
    = Cert.GNN.denseStep (F := Ideal) (V c main_v46) (V c main_v51) (V c main_v50) (((cfg1.win 3).blk t).view.emb (ix2 p q))
  refine (pay_apply (iblk1 V c 0 t) (iblk1 V c 1 t) (iblk1 V c 2 t) p q).trans ?_
  refine Eq.trans ?_ (dense_at (V c main_v46) (V c main_v51) (V c main_v50) _ ⟨t.val * 5000 + p.val, hr⟩ q ?_ ?_).symm
  · refine Finset.sum_congr rfl fun k _ => ?_
    exact congrArg₂ (· * ·)
      (congrArg₂ act (blk0_apply V c t p k ⟨t.val * 5000 + p.val, hr⟩ rfl) (blk1_apply V c t k))
      (blk2_apply V c t k q)
  · show win1_3.index t (0 : Fin 2) * 5000 + 1 * p.val = t.val * 5000 + p.val; omega
  · show win1_3.index t (1 : Fin 2) * 64 + 1 * q.val = q.val; omega

/-- An index of the array lies in point t's block iff each coordinate is in the block's range on its axis. -/
theorem mem_blk (t : Fin cfg1.N) (i : (⟨2, ![100000, 64]⟩ : Shape).Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v52).slice (win1_3.rect t)).set ↔ _
  rw [View.set_slice_whole, Rect.mem_set_unit]
  exact Iff.rfl

/-- Row r of the array lies in the block of the point r / 5000. -/
theorem cover (i : (⟨2, ![100000, 64]⟩ : Shape).Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 20 := N_1
  have hlt : (i 0).val / 5000 < 20 := by omega
  obtain ⟨t, ht⟩ : ∃ t : Fin cfg1.N, t.val = (i 0).val / 5000 := ⟨⟨(i 0).val / 5000, lt_of_lt_of_eq hlt hN.symm⟩, rfl⟩
  obtain ⟨-, -, -, -, -, -, e6, e7⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- The region's output array after all 20 points is the dense step of its entry arrays. -/
theorem array1 (c : Dev nD) :
    (dat1 (F := Ideal) V c).arrAt 3 cfg1.N
      = Cert.GNN.denseStep (F := Ideal) (V c main_v46) (V c main_v51) (V c main_v50) :=
  (dat1 (F := Ideal) V c).arrAt_eq_of_cover 3
    (Cert.GNN.denseStep (F := Ideal) (V c main_v46) (V c main_v51) (V c main_v50))
    (fun t _ => flushed_eq V c t) cover

end Cert.KernelIdeal.Region1
end
-- ==== Proof.Region2.lean ====
/-
  Region 2 of the kernel program: one dense step of the message-passing network.

  The region's grid has 20 points; point t stages rows 5000 t … 5000 t + 4999 of the 100000 × 64 feature array,
  the whole 1 × 64 bias row and the whole 64 × 64 projection matrix, and writes back rows 5000 t … 5000 t + 4999
  of the result. The body computes, for row p and column q of its block,
      ∑ k < 64, max (x[p, k] + b[0, k], 0) · W[k, q]
  (the changes of float format are the identity on the extended reals, and the product into a zero accumulator is
  the plain sum). The dense step `relu (A + b) · W` of the whole arrays, read at row r and column q, is the same sum
  with A's row r. Row p of block t is row 5000 t + p of the array, so what each point writes back is its block of
  the dense step, and the 20 blocks cover the array: the array after the region is the dense step of the arrays
  the region was entered with.
-/
import proofs.«176120_j39779987095909_1_alg».proof.Proof.Gen.KernelIdeal.Frame
import proofs.«176120_j39779987095909_1_alg».proof.Proof.Spec
import Idealize.ShloMosaic.Lib.Pipeline.Value
import Idealize.ShloMosaic.Lib.ValueIdx
import Idealize.ShloMosaic.PureOps.Ideal.Laws

noncomputable section
namespace Cert.KernelIdeal.Region2
open Cert.KernelIdeal Cert.KernelIdeal.Gen Idealize.ShloMosaic Idealize.ShloMosaic.TcCoe Idealize.SL.Sem
open Idealize.ShloMosaic.Pipeline (Dat)
open Idealize.ShloMosaic.ValueIdx

/-- relu of the sum, elementwise on the extended reals. -/
def act (a b : EReal) : EReal := max (a + b) (Ideal.ofBits .f32 0x00000000#32)

/-! ## The two sides at an index -/

/-- The body's block at row p, column q: the sum over the 64 features of relu(x0 + bias row) times the projection. -/
theorem pay_apply (x0 : Vec Ideal S5000x64 .f32) (x1 : Vec Ideal S1x64 .f32) (x2 : Vec Ideal S64x64 .f32)
    (p : Fin 5000) (q : Fin 64) :
    k2_pay1 (F := Ideal) x0 x1 x2 (ix2 p q)
      = ∑ k : Fin 64, act (x0 (ix2 p k)) (x1 (ix2 (0 : Fin 1) k)) * x2 (ix2 k q) := by
  unfold k2_pay1
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have ck := contrEquiv1_symm_val dot_S5000x64_S64x64_S5000x64_1_0_0_1_n_n 64 rfl rfl k
  have hl : dot_S5000x64_S64x64_S5000x64_1_0_0_1_n_n.lhsIdx (ix2 p q)
      ((contrEquiv1 dot_S5000x64_S64x64_S5000x64_1_0_0_1_n_n 64 rfl rfl).symm k) = ix2 p k := by
    funext ax; apply Fin.ext
    match ax with
    | ⟨0, _⟩ => simp [DotDims.lhsIdx, dot_S5000x64_S64x64_S5000x64_1_0_0_1_n_n]; rfl
    | ⟨1, _⟩ => simp [DotDims.lhsIdx, dot_S5000x64_S64x64_S5000x64_1_0_0_1_n_n]; exact ck
  have hr : dot_S5000x64_S64x64_S5000x64_1_0_0_1_n_n.rhsIdx (ix2 p q)
      ((contrEquiv1 dot_S5000x64_S64x64_S5000x64_1_0_0_1_n_n 64 rfl rfl).symm k) = ix2 k q := by
    funext ax; apply Fin.ext
    match ax with
    | ⟨0, _⟩ => simp [DotDims.rhsIdx, dot_S5000x64_S64x64_S5000x64_1_0_0_1_n_n]; exact ck
    | ⟨1, _⟩ => simp [DotDims.rhsIdx, dot_S5000x64_S64x64_S5000x64_1_0_0_1_n_n]; rfl
  rw [hl, hr]
  simp only [shapeCast_self]
  have hb : broadcastTo S5000x64 x1 broadcasts_S1x64_S5000x64 (ix2 p k) = x1 (ix2 (0 : Fin 1) k) :=
    broadcastTo_apply x1 broadcasts_S1x64_S5000x64 (ix2 p k) (ix2 (0 : Fin 1) k)
      (fun a => by match a with | ⟨0, _⟩ => rfl | ⟨1, _⟩ => rfl)
  show max (x0 (ix2 p k) + broadcastTo S5000x64 x1 broadcasts_S1x64_S5000x64 (ix2 p k)) (Ideal.ofBits .f32 0x00000000#32)
      * x2 (ix2 k q) = _
  rw [hb]
  rfl

/-- The dense step at row r, column q: the same sum over the 64 features, of the whole arrays. -/
theorem dense_apply (A : (⟨Cert.ReferenceIdeal.S100000x64, .f32⟩ : BufTy).Contents (Elt Ideal))
    (b : (⟨Cert.ReferenceIdeal.S1x64, .f32⟩ : BufTy).Contents (Elt Ideal))
    (W : (⟨Cert.ReferenceIdeal.S64x64, .f32⟩ : BufTy).Contents (Elt Ideal)) (r : Fin 100000) (q : Fin 64) :
    Cert.GNN.denseStep (F := Ideal) A b W (ix2 r q)
      = ∑ k : Fin 64, act (A (ix2 r k)) (b (ix2 (0 : Fin 1) k)) * W (ix2 k q) := by
  unfold Cert.GNN.denseStep
  show FloatOps.dotGeneral Cert.ReferenceIdeal.dot_S100000x64_S64x64_S100000x64_1_0_0_1_n_n none _ (Cert.GNN.reluStep A b) W (ix2 r q) = _
  rw [Ideal.dotGeneral_apply,
    ← Equiv.sum_comp (contrEquiv1 Cert.ReferenceIdeal.dot_S100000x64_S64x64_S100000x64_1_0_0_1_n_n 64 rfl rfl).symm]
  refine Finset.sum_congr rfl fun k _ => ?_
  have ck := contrEquiv1_symm_val Cert.ReferenceIdeal.dot_S100000x64_S64x64_S100000x64_1_0_0_1_n_n 64 rfl rfl k
  have hl : Cert.ReferenceIdeal.dot_S100000x64_S64x64_S100000x64_1_0_0_1_n_n.lhsIdx (ix2 r q)
      ((contrEquiv1 Cert.ReferenceIdeal.dot_S100000x64_S64x64_S100000x64_1_0_0_1_n_n 64 rfl rfl).symm k) = ix2 r k := by
    funext ax; apply Fin.ext
    match ax with
    | ⟨0, _⟩ => simp [DotDims.lhsIdx, Cert.ReferenceIdeal.dot_S100000x64_S64x64_S100000x64_1_0_0_1_n_n]; rfl
    | ⟨1, _⟩ => simp [DotDims.lhsIdx, Cert.ReferenceIdeal.dot_S100000x64_S64x64_S100000x64_1_0_0_1_n_n]; exact ck
  have hr : Cert.ReferenceIdeal.dot_S100000x64_S64x64_S100000x64_1_0_0_1_n_n.rhsIdx (ix2 r q)
      ((contrEquiv1 Cert.ReferenceIdeal.dot_S100000x64_S64x64_S100000x64_1_0_0_1_n_n 64 rfl rfl).symm k) = ix2 k q := by
    funext ax; apply Fin.ext
    match ax with
    | ⟨0, _⟩ => simp [DotDims.rhsIdx, Cert.ReferenceIdeal.dot_S100000x64_S64x64_S100000x64_1_0_0_1_n_n]; exact ck
    | ⟨1, _⟩ => simp [DotDims.rhsIdx, Cert.ReferenceIdeal.dot_S100000x64_S64x64_S100000x64_1_0_0_1_n_n]; rfl
  rw [hl, hr]
  unfold Cert.GNN.reluStep
  have hb : broadcastInDim Cert.ReferenceIdeal.S100000x64 ![0, 1] Cert.ReferenceIdeal.Gen.bcast_S1x64_S100000x64_0_1 b (ix2 r k)
      = b (ix2 (0 : Fin 1) k) :=
    broadcastInDim_apply _ _ b (ix2 r k) (ix2 (0 : Fin 1) k) (fun a => by match a with | ⟨0, _⟩ => rfl | ⟨1, _⟩ => rfl)
  have hc : broadcastInDim Cert.ReferenceIdeal.S100000x64 ![] Cert.ReferenceIdeal.Gen.bcast_S_S100000x64
      (constant (F := Ideal) Cert.ReferenceIdeal.S_ .f32 0x00000000#32) (ix2 r k) = Ideal.ofBits .f32 0x00000000#32 :=
    broadcastInDim_apply _ _ _ (ix2 r k) ix0 (fun a => a.elim0)
  show max (A (ix2 r k) + broadcastInDim Cert.ReferenceIdeal.S100000x64 ![0, 1] Cert.ReferenceIdeal.Gen.bcast_S1x64_S100000x64_0_1 b (ix2 r k))
      (broadcastInDim Cert.ReferenceIdeal.S100000x64 ![] Cert.ReferenceIdeal.Gen.bcast_S_S100000x64
        (constant (F := Ideal) Cert.ReferenceIdeal.S_ .f32 0x00000000#32) (ix2 r k)) * W (ix2 k q) = _
  rw [hb, hc]
  rfl

/-! ## The blocks of the windows -/

variable (V : (c : Dev nD) → (b : Ref sig .tc) → Buf (Elt Ideal) ((c : Thread nD τ).loc b))

theorem hz : (![0, 0] : Fin 2 → Nat) = fun _ => 0 := funext fun a => by fin_cases a <;> rfl

/-- The block index of each window at point t: the row-blocked windows (the features in, the result out) sit at
    block row t, the bias row and the projection matrix are one whole block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the feature block at point t is row 5000 t + p of the array. -/
theorem blk0_apply (c : Dev nD) (t : Fin cfg2.N) (p : Fin 5000) (k : Fin 64) (r : Fin 100000)
    (hr : r.val = t.val * 5000 + p.val) :
    (iblk2 (F := Ideal) V c 0 t : Vec Ideal S5000x64 .f32) (ix2 p k) = V c main_v64 (ix2 r k) := by
  obtain ⟨e0, e1, -⟩ := idx_facts t
  show V c main_v64 (((cfg2.win 0).blk t).view.emb (ix2 p k)) = V c main_v64 (ix2 r k)
  refine congrArg (V c main_v64) (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The bias row's block is the whole row. -/
theorem blk1_apply (c : Dev nD) (t : Fin cfg2.N) (k : Fin 64) :
    (iblk2 (F := Ideal) V c 1 t : Vec Ideal S1x64 .f32) (ix2 (0 : Fin 1) k) = V c main_v69 (ix2 (0 : Fin 1) k) := by
  obtain ⟨-, -, e2, e3, -⟩ := idx_facts t
  show V c main_v69 (((cfg2.win 1).blk t).view.emb (ix2 (0 : Fin 1) k)) = V c main_v69 (ix2 (0 : Fin 1) k)
  refine congrArg (V c main_v69) (funext fun a => Fin.ext ?_)
  match a with
  | ⟨0, _⟩ => show win2_1.index t (0 : Fin 2) * 1 + 1 * 0 = 0; omega
  | ⟨1, _⟩ => show win2_1.index t (1 : Fin 2) * 64 + 1 * k.val = k.val; omega

/-- The projection matrix's block is the whole matrix. -/
theorem blk2_apply (c : Dev nD) (t : Fin cfg2.N) (k q : Fin 64) :
    (iblk2 (F := Ideal) V c 2 t : Vec Ideal S64x64 .f32) (ix2 k q) = V c main_v68 (ix2 k q) := by
  obtain ⟨-, -, -, -, e4, e5, -⟩ := idx_facts t
  show V c main_v68 (((cfg2.win 2).blk t).view.emb (ix2 k q)) = V c main_v68 (ix2 k q)
  refine congrArg (V c main_v68) (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

/-! ## From the blocks to the array -/

/-- The dense step at an index named by its coordinates. -/
theorem dense_at (A : (⟨Cert.ReferenceIdeal.S100000x64, .f32⟩ : BufTy).Contents (Elt Ideal))
    (b : (⟨Cert.ReferenceIdeal.S1x64, .f32⟩ : BufTy).Contents (Elt Ideal))
    (W : (⟨Cert.ReferenceIdeal.S64x64, .f32⟩ : BufTy).Contents (Elt Ideal))
    (i : (⟨2, ![100000, 64]⟩ : Shape).Idx) (r : Fin 100000) (q : Fin 64) (h0 : (i 0).val = r.val) (h1 : (i 1).val = q.val) :
    Cert.GNN.denseStep (F := Ideal) A b W i
      = ∑ k : Fin 64, act (A (ix2 r k)) (b (ix2 (0 : Fin 1) k)) * W (ix2 k q) := by
  obtain rfl : i = ix2 r q := funext fun a => Fin.ext (by match a with | ⟨0, _⟩ => exact h0 | ⟨1, _⟩ => exact h1)
  exact dense_apply A b W r q

/-- What point t writes back is block t of the dense step of the region's entry arrays. -/
theorem flushed_eq (c : Dev nD) (t : Fin cfg2.N) :
    (dat2 (F := Ideal) V c).flushed 3 t = ((cfg2.win 3).blk t).view.read (Elt Ideal)
      (Cert.GNN.denseStep (F := Ideal) (V c main_v64) (V c main_v69) (V c main_v68)) := by
  show (cfg2.win 3).cut (grid2.coords t) ((dat2 (F := Ideal) V c).after 3 t) = _
  rw [after2_3]
  unfold out2_3
  rw [View.canon_unit_zero hz]
  simp only [View.ld_unit_zero (S := S5000x64) hz, View.ld_unit_zero (S := S1x64) hz, View.ld_unit_zero (S := S64x64) hz]
  obtain ⟨-, -, -, -, -, -, e6, e7⟩ := idx_facts t
  have hN : grid2.N = 20 := N_2
  have ht : t.val < 20 := lt_of_lt_of_eq t.isLt hN
  funext j
  obtain ⟨p, q, rfl⟩ : ∃ (p : Fin 5000) (q : Fin 64), j = ix2 p q := ⟨j 0, j 1, eq_ix2 j⟩
  have hr : t.val * 5000 + p.val < 100000 := by have := p.isLt; omega
  show k2_pay1 (F := Ideal) (iblk2 V c 0 t) (iblk2 V c 1 t) (iblk2 V c 2 t) (ix2 p q)
    = Cert.GNN.denseStep (F := Ideal) (V c main_v64) (V c main_v69) (V c main_v68) (((cfg2.win 3).blk t).view.emb (ix2 p q))
  refine (pay_apply (iblk2 V c 0 t) (iblk2 V c 1 t) (iblk2 V c 2 t) p q).trans ?_
  refine Eq.trans ?_ (dense_at (V c main_v64) (V c main_v69) (V c main_v68) _ ⟨t.val * 5000 + p.val, hr⟩ q ?_ ?_).symm
  · refine Finset.sum_congr rfl fun k _ => ?_
    exact congrArg₂ (· * ·)
      (congrArg₂ act (blk0_apply V c t p k ⟨t.val * 5000 + p.val, hr⟩ rfl) (blk1_apply V c t k))
      (blk2_apply V c t k q)
  · show win2_3.index t (0 : Fin 2) * 5000 + 1 * p.val = t.val * 5000 + p.val; omega
  · show win2_3.index t (1 : Fin 2) * 64 + 1 * q.val = q.val; omega

/-- An index of the array lies in point t's block iff each coordinate is in the block's range on its axis. -/
theorem mem_blk (t : Fin cfg2.N) (i : (⟨2, ![100000, 64]⟩ : Shape).Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v70).slice (win2_3.rect t)).set ↔ _
  rw [View.set_slice_whole, Rect.mem_set_unit]
  exact Iff.rfl

/-- Row r of the array lies in the block of the point r / 5000. -/
theorem cover (i : (⟨2, ![100000, 64]⟩ : Shape).Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 20 := N_2
  have hlt : (i 0).val / 5000 < 20 := by omega
  obtain ⟨t, ht⟩ : ∃ t : Fin cfg2.N, t.val = (i 0).val / 5000 := ⟨⟨(i 0).val / 5000, lt_of_lt_of_eq hlt hN.symm⟩, rfl⟩
  obtain ⟨-, -, -, -, -, -, e6, e7⟩ := idx_facts t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 64 ≤ (i 1).val ∧ (i 1).val < win2_3.index t (1 : Fin 2) * 64 + 64
    omega

/-- The region's output array after all 20 points is the dense step of its entry arrays. -/
theorem array2 (c : Dev nD) :
    (dat2 (F := Ideal) V c).arrAt 3 cfg2.N
      = Cert.GNN.denseStep (F := Ideal) (V c main_v64) (V c main_v69) (V c main_v68) :=
  (dat2 (F := Ideal) V c).arrAt_eq_of_cover 3
    (Cert.GNN.denseStep (F := Ideal) (V c main_v64) (V c main_v69) (V c main_v68))
    (fun t _ => flushed_eq V c t) cover

end Cert.KernelIdeal.Region2
end
-- ==== Proof.Region3.lean ====
/-
  Region 3 of the kernel program (the last fused region: bias, relu and the per-node head), read as two functions of
  the arrays the region finds at its entry.

  The region walks 20 blocks of 5000 rows. At each block it adds the 1 × 64 bias row to every row of the block of node
  features and takes the maximum with 0 (the node features it returns), and multiplies that block by the 64 × 1 head
  weights, adding the 1 × 1 head bias (the per-node logit). Both outputs are row-blocked like the input, so block t of
  either output is the same function of the entry arrays restricted to rows 5000 t … 5000 t + 4999, and the 20 blocks
  cover all 100000 rows: each output array ends as that function of the entry arrays. At the ideal values the change of
  format before the product is the identity and the product into a zero accumulator is the plain 64-term sum, the same
  sum the host's product is.
-/
import proofs.«176120_j39779987095909_1_alg».proof.Proof.Gen.KernelIdeal.Frame
import proofs.«176120_j39779987095909_1_alg».proof.Proof.Spec
import Idealize.ShloMosaic.Lib.Pipeline.Value
import Idealize.ShloMosaic.Lib.ValueIdx
import Idealize.ShloMosaic.PureOps.Ideal.Laws

noncomputable section
namespace Cert.KernelIdeal.Region3
open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The bias-and-relu payload at an element. -/
theorem pay1_apply (x0 : Vec Ideal S5000x64 .f32) (x1 : Vec Ideal S1x64 .f32) (p : Fin 5000) (q : Fin 64) :
    k3_pay1 x0 x1 (ix2 p q) = max (x0 (ix2 p q) + x1 (ix2 0 q)) (Ideal.ofBits .f32 0x00000000#32) := by
  unfold k3_pay1
  rw [maximumf_apply, addf_apply, broadcast_apply, shapeCast_self, shapeCast_self]
  rw [broadcastTo_apply x1 broadcasts_S1x64_S5000x64 (ix2 p q) (ix2 0 q) (fun a => by
    match a with
    | ⟨0, _⟩ => rfl
    | ⟨1, _⟩ => rfl)]
  rfl

/-- The reference's bias-and-relu at an element. -/
theorem reluStep_apply (A : S100000x64.Idx → Elt Ideal .f32) (b : S1x64.Idx → Elt Ideal .f32) (r : Fin 100000) (q : Fin 64) :
    Cert.GNN.reluStep (F := Ideal) A b (ix2 r q) = max (A (ix2 r q) + b (ix2 0 q)) (Ideal.ofBits .f32 0x00000000#32) := by
  unfold Cert.GNN.reluStep
  rw [maximumf_apply, addf_apply]
  rw [broadcastInDim_apply _ _ b (ix2 r q) (ix2 0 q) (fun a => by
    match a with
    | ⟨0, _⟩ => rfl
    | ⟨1, _⟩ => rfl)]
  rfl

/-- The block indices of the region's windows at every point: the row-blocked windows (the node features and the two
    outputs) are at block (t, 0), the bias row, the head's weights and its bias at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

theorem point_lt (t : Fin cfg3.N) : t.val < 20 := by
  have h : t.val < cfg3.N := t.isLt
  have hN : cfg3.N = 20 := N_3
  omega

/-- The node-feature window's block at point t is rows 5000 t … 5000 t + 4999 of the features. -/
theorem iblk0_apply (c : Dev nD) (t : Fin cfg3.N) (p : Fin 5000) (q : Fin 64) (h : t.val * 5000 + p.val < 100000) :
    (iblk3 V c 0 t : Vec Ideal S5000x64 .f32) (ix2 p q)
      = (V c main_v82 : S100000x64.Idx → Elt Ideal .f32) (ix2 ⟨t.val * 5000 + p.val, h⟩ q) := by
  obtain ⟨e00, e01, -⟩ := idx_facts t
  unfold iblk3
  rw [View.read_apply]
  show V c main_v82 _ = V c main_v82 _
  congr 1
  funext a; apply Fin.ext
  match a with
  | ⟨0, _⟩ => show win3_0.index t 0 * 5000 + 1 * p.val = t.val * 5000 + p.val; rw [e00]; omega
  | ⟨1, _⟩ => show win3_0.index t 1 * 64 + 1 * q.val = q.val; rw [e01]; omega

/-- The bias window's block is the bias row at every point. -/
theorem iblk1_apply (c : Dev nD) (t : Fin cfg3.N) (q : Fin 64) :
    (iblk3 V c 1 t : Vec Ideal S1x64 .f32) (ix2 0 q) = (V c main_v85 : S1x64.Idx → Elt Ideal .f32) (ix2 0 q) := by
  obtain ⟨-, -, e10, e11, -⟩ := idx_facts t
  unfold iblk3
  rw [View.read_apply]
  show V c main_v85 _ = V c main_v85 _
  congr 1
  funext a; apply Fin.ext
  match a with
  | ⟨0, _⟩ => show win3_1.index t 0 * 1 + 1 * 0 = 0; rw [e10]
  | ⟨1, _⟩ => show win3_1.index t 1 * 64 + 1 * q.val = q.val; rw [e11]; omega

theorem flushed4_eq (c : Dev nD) (t : Fin cfg3.N) :
    (dat3 (F := Ideal) V c).flushed 4 t = ((cfg3.win 4).blk t).view.read (Elt Ideal) (Cert.GNN.reluStep (F := Ideal) (V c main_v82) (V c main_v85)) := by
  show (cfg3.win 4).cut (grid3.coords t) ((dat3 V c).after 4 t) = _
  rw [after3_4]
  unfold out3_4
  rw [View.canon_unit_zero hz]
  simp only [View.ld_unit_zero (S := S5000x64) hz, View.ld_unit_zero (S := S1x64) hz]
  have ht := point_lt t
  obtain ⟨-, -, -, -, -, -, -, -, e40, e41, -⟩ := idx_facts t
  funext j
  rw [View.read_apply]
  show k3_pay1 (iblk3 V c 0 t) (iblk3 V c 1 t) j = Cert.GNN.reluStep (F := Ideal) (V c main_v82) (V c main_v85) (((cfg3.win 4).blk t).view.emb j)
  obtain ⟨p, q, rfl⟩ : ∃ (p : Fin 5000) (q : Fin 64), j = ix2 p q := ⟨j 0, j 1, eq_ix2 j⟩
  have hp := p.isLt
  have hemb : ((cfg3.win 4).blk t).view.emb (ix2 p q) = (ix2 ⟨t.val * 5000 + p.val, by omega⟩ q : S100000x64.Idx) := by
    funext a; apply Fin.ext
    match a with
    | ⟨0, _⟩ => show win3_4.index t 0 * 5000 + 1 * p.val = t.val * 5000 + p.val; rw [e40]; omega
    | ⟨1, _⟩ => show win3_4.index t 1 * 64 + 1 * q.val = q.val; rw [e41]; omega
  rw [hemb]
  refine (pay1_apply _ _ p q).trans ?_
  refine Eq.trans ?_ (reluStep_apply _ _ _ q).symm
  rw [iblk0_apply V c t p q (by omega), iblk1_apply V c t q]

/-- An index of the node-feature output is in point t's block iff each coordinate is in the block's range on its axis. -/
theorem mem_blk4 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v87_0).slice (win3_4.rect t)).set ↔ _
  rw [View.set_slice_whole, Rect.mem_set_unit]
  exact Iff.rfl

/-- Every row r of the node-feature output lies in the block of point r / 5000. -/
theorem cover4 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  let t : Fin cfg3.N := ⟨(i 0).val / 5000, by omega⟩
  have htv : t.val = (i 0).val / 5000 := rfl
  obtain ⟨-, -, -, -, -, -, -, -, e40, e41, -⟩ := idx_facts t
  refine ⟨t, flush3_4 t, ?_⟩
  rw [mem_blk4]
  intro a
  match a with
  | ⟨0, _⟩ => show win3_4.index t (0 : Fin 2) * 5000 ≤ (i 0).val ∧ (i 0).val < win3_4.index t (0 : Fin 2) * 5000 + 5000; rw [e40, htv]; omega
  | ⟨1, _⟩ => show win3_4.index t (1 : Fin 2) * 64 ≤ (i 1).val ∧ (i 1).val < win3_4.index t (1 : Fin 2) * 64 + 64; rw [e41]; omega

/-- The node-feature output after the region: the bias row added to every row of the entry features, then the relu. -/
theorem array3_h (c : Dev nD) :
    (dat3 (F := Ideal) V c).arrAt 4 cfg3.N = Cert.GNN.reluStep (F := Ideal) (V c main_v82) (V c main_v85) :=
  (dat3 (F := Ideal) V c).arrAt_eq_of_cover 4 (Cert.GNN.reluStep (F := Ideal) (V c main_v82) (V c main_v85))
    (fun t _ => flushed4_eq V c t) cover4

/-! ## The head: a 64-term contraction per node -/

/-- A product of an m × k by a k × n matrix whose dimension numbers contract the left operand's columns against the right
    operand's rows: at output (a, b) and contraction position c the operands are read at (a, c) and (c, b). -/
theorem dot_idx {m k n : Nat} (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
        ((contrEquiv1 (⟨[1], [0], [0], [1], [], [], w⟩ : DotDims ⟨2, ![m, k]⟩ ⟨2, ![k, n]⟩ ⟨2, ![m, n]⟩) k rfl rfl).symm c) = ix2 a c
    ∧ (⟨[1], [0], [0], [1], [], [], w⟩ : DotDims ⟨2, ![m, k]⟩ ⟨2, ![k, n]⟩ ⟨2, ![m, n]⟩).rhsIdx (ix2 a b)
        ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val (⟨[1], [0], [0], [1], [], [], w⟩ : DotDims ⟨2, ![m, k]⟩ ⟨2, ![k, n]⟩ ⟨2, ![m, n]⟩) k rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; exact c2
    | ⟨1, _⟩ => simp [DotDims.rhsIdx]; rfl

/-- Such a product on the matrix unit into a zero accumulator, at an element: the sum over the contracted coordinate. -/
theorem matmul_zero_apply {m k n : Nat} {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  obtain ⟨l2, r2⟩ := dot_idx w a b c
  rw [l2, r2]

/-- The same product as the host computes it, at an element: the same sum. -/
theorem dotGeneral_apply' {m k n : Nat} {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  obtain ⟨l2, r2⟩ := dot_idx w a b c
  rw [l2, r2]

/-- The head's payload at an element: the 64-term sum of the relu'd row against the head weights, plus the head bias. -/
theorem pay2_apply (x0 : Vec Ideal S5000x64 .f32) (x1 : Vec Ideal S1x64 .f32) (x2 : Vec Ideal S64x1 .f32) (x3 : Vec Ideal S1x1 .f32)
    (p : Fin 5000) (q : Fin 1) :
    k3_pay2 x0 x1 x2 x3 (ix2 p q)
      = (∑ k : Fin 64, max (x0 (ix2 p k) + x1 (ix2 0 k)) (Ideal.ofBits .f32 0x00000000#32) * x2 (ix2 k q)) + x3 (ix2 0 0) := by
  unfold k3_pay2
  rw [addf_apply, shapeCast_self]
  rw [broadcastTo_apply x3 broadcasts_S1x1_S5000x1 (ix2 p q) (ix2 0 0) (fun a => by
    match a with
    | ⟨0, _⟩ => rfl
    | ⟨1, _⟩ => rfl)]
  refine congrArg (· + x3 (ix2 0 0)) ?_
  refine (matmul_zero_apply dot_S5000x64_S64x1_S5000x1_1_0_0_1_n_n_wf none _ _ p q).trans ?_
  exact Finset.sum_congr rfl fun k _ => by rw [truncf_apply, truncf_apply, pay1_apply]

/-- The reference's head at an element: the same sum. -/
theorem headStep_apply (A : S100000x64.Idx → Elt Ideal .f32) (b : S1x64.Idx → Elt Ideal .f32)
    (Wt : S64x1.Idx → Elt Ideal .f32) (bt : S1x1.Idx → Elt Ideal .f32) (r : Fin 100000) (q : Fin 1) :
    Cert.GNN.headStep (F := Ideal) A b Wt bt (ix2 r q)
      = (∑ k : Fin 64, max (A (ix2 r k) + b (ix2 0 k)) (Ideal.ofBits .f32 0x00000000#32) * Wt (ix2 k q)) + bt (ix2 0 0) := by
  unfold Cert.GNN.headStep
  rw [addf_apply]
  rw [broadcastInDim_apply _ _ bt (ix2 r q) (ix2 0 0) (fun a => by
    match a with
    | ⟨0, _⟩ => rfl
    | ⟨1, _⟩ => rfl)]
  refine congrArg (· + bt (ix2 0 0)) ?_
  refine (dotGeneral_apply' _ none _ _ r q).trans ?_
  exact Finset.sum_congr rfl fun k _ => by rw [reluStep_apply]

/-- The head-weight window's block is the 64 × 1 weights at every point. -/
theorem iblk2_apply (c : Dev nD) (t : Fin cfg3.N) (k : Fin 64) (q : Fin 1) :
    (iblk3 V c 2 t : Vec Ideal S64x1 .f32) (ix2 k q) = (V c main_arg9 : S64x1.Idx → Elt Ideal .f32) (ix2 k q) := by
  obtain ⟨-, -, -, -, e20, e21, -⟩ := idx_facts t
  unfold iblk3
  rw [View.read_apply]
  show V c main_arg9 _ = V c main_arg9 _
  congr 1
  funext a; apply Fin.ext
  match a with
  | ⟨0, _⟩ => show win3_2.index t 0 * 64 + 1 * k.val = k.val; rw [e20]; omega
  | ⟨1, _⟩ => show win3_2.index t 1 * 1 + 1 * q.val = q.val; rw [e21]; omega

/-- The head-bias window's block is the 1 × 1 bias at every point. -/
theorem iblk3_apply (c : Dev nD) (t : Fin cfg3.N) :
    (iblk3 V c 3 t : Vec Ideal S1x1 .f32) (ix2 0 0) = (V c main_v86 : S1x1.Idx → Elt Ideal .f32) (ix2 0 0) := by
  obtain ⟨-, -, -, -, -, -, e30, e31, -⟩ := idx_facts t
  unfold iblk3
  rw [View.read_apply]
  show V c main_v86 _ = V c main_v86 _
  congr 1
  funext a; apply Fin.ext
  match a with
  | ⟨0, _⟩ => show win3_3.index t 0 * 1 + 1 * 0 = 0; rw [e30]
  | ⟨1, _⟩ => show win3_3.index t 1 * 1 + 1 * 0 = 0; rw [e31]

/-- What point t writes back to the logit output is block t of the head of the entry arrays. -/
theorem flushed5_eq (c : Dev nD) (t : Fin cfg3.N) :
    (dat3 (F := Ideal) V c).flushed 5 t = ((cfg3.win 5).blk t).view.read (Elt Ideal)
      (Cert.GNN.headStep (F := Ideal) (V c main_v82) (V c main_v85) (V c main_arg9) (V c main_v86)) := by
  show (cfg3.win 5).cut (grid3.coords t) ((dat3 V c).after 5 t) = _
  rw [after3_5]
  unfold out3_5
  rw [View.canon_unit_zero hz]
  simp only [View.ld_unit_zero (S := S5000x64) hz, View.ld_unit_zero (S := S1x64) hz, View.ld_unit_zero (S := S64x1) hz,
    View.ld_unit_zero (S := S1x1) hz]
  have ht := point_lt t
  obtain ⟨-, -, -, -, -, -, -, -, -, -, e50, e51⟩ := idx_facts t
  funext j
  rw [View.read_apply]
  show k3_pay2 (iblk3 V c 0 t) (iblk3 V c 1 t) (iblk3 V c 2 t) (iblk3 V c 3 t) j
    = Cert.GNN.headStep (F := Ideal) (V c main_v82) (V c main_v85) (V c main_arg9) (V c main_v86) (((cfg3.win 5).blk t).view.emb j)
  obtain ⟨p, q, rfl⟩ : ∃ (p : Fin 5000) (q : Fin 1), j = ix2 p q := ⟨j 0, j 1, eq_ix2 j⟩
  have hp := p.isLt
  have hemb : ((cfg3.win 5).blk t).view.emb (ix2 p q) = (ix2 ⟨t.val * 5000 + p.val, by omega⟩ q : S100000x1.Idx) := by
    funext a; apply Fin.ext
    match a with
    | ⟨0, _⟩ => show win3_5.index t 0 * 5000 + 1 * p.val = t.val * 5000 + p.val; rw [e50]; omega
    | ⟨1, _⟩ => show win3_5.index t 1 * 1 + 1 * q.val = q.val; rw [e51]; omega
  rw [hemb]
  refine (pay2_apply _ _ _ _ p q).trans ?_
  refine Eq.trans ?_ (headStep_apply _ _ _ _ _ q).symm
  rw [iblk3_apply V c t]
  refine congrArg (· + (V c main_v86 : S1x1.Idx → Elt Ideal .f32) (ix2 0 0)) ?_
  refine Finset.sum_congr rfl fun k _ => ?_
  rw [iblk0_apply V c t p k (by omega), iblk1_apply V c t k, iblk2_apply V c t k q]

/-- An index of the logit output is in point t's block iff each coordinate is in the block's range on its axis. -/
theorem mem_blk5 (t : Fin cfg3.N) (i : S100000x1.Idx) :
    i ∈ ((cfg3.win 5).blk t).view.set ↔ ∀ a : Fin 2, win3_5.index t a * S5000x1.size a ≤ (i a).val ∧ (i a).val < win3_5.index t a * S5000x1.size a + S5000x1.size a := by
  show i ∈ ((View.whole main_v87_1).slice (win3_5.rect t)).set ↔ _
  rw [View.set_slice_whole, Rect.mem_set_unit]
  exact Iff.rfl

/-- Every row r of the logit output lies in the block of point r / 5000. -/
theorem cover5 (i : S100000x1.Idx) : ∃ t : Fin cfg3.N, (cfg3.win 5).flush t = true ∧ i ∈ ((cfg3.win 5).blk t).view.set := by
  have hi0 : (i 0).val < 100000 := (i 0).isLt
  have hi1 : (i 1).val < 1 := (i 1).isLt
  have hN : cfg3.N = 20 := N_3
  let t : Fin cfg3.N := ⟨(i 0).val / 5000, by omega⟩
  have htv : t.val = (i 0).val / 5000 := rfl
  obtain ⟨-, -, -, -, -, -, -, -, -, -, e50, e51⟩ := idx_facts t
  refine ⟨t, flush3_5 t, ?_⟩
  rw [mem_blk5]
  intro a
  match a with
  | ⟨0, _⟩ => show win3_5.index t (0 : Fin 2) * 5000 ≤ (i 0).val ∧ (i 0).val < win3_5.index t (0 : Fin 2) * 5000 + 5000; rw [e50, htv]; omega
  | ⟨1, _⟩ => show win3_5.index t (1 : Fin 2) * 1 ≤ (i 1).val ∧ (i 1).val < win3_5.index t (1 : Fin 2) * 1 + 1; rw [e51]; omega

/-- The logit output after the region: the relu'd features times the head weights plus the head bias, of the entry arrays. -/
theorem array3_t (c : Dev nD) :
    (dat3 (F := Ideal) V c).arrAt 5 cfg3.N = Cert.GNN.headStep (F := Ideal) (V c main_v82) (V c main_v85) (V c main_arg9) (V c main_v86) :=
  (dat3 (F := Ideal) V c).arrAt_eq_of_cover 5 (Cert.GNN.headStep (F := Ideal) (V c main_v82) (V c main_v85) (V c main_arg9) (V c main_v86))
    (fun t _ => flushed5_eq V c t) cover5

end Cert.KernelIdeal.Region3
end
-- ==== Proof.lean ====
/-
  A message-passing network on a graph of 100000 nodes and 1000000 edges (three rounds of: project the node features,
  gather each edge's source row, scale it by the edge's weight deg(src)^(-1/2) · deg(dst)^(-1/2), add it into the
  edge's target row, add a bias, relu), followed by a per-node logit and two heads on the per-graph averages of the
  node features. The kernel program fuses each "bias, relu, next projection" into one blocked kernel (and the
  embedding with the first projection, and the last bias/relu with the per-node logit); the reference program does the
  same arithmetic with whole-array host operations. Over the extended reals the two agree exactly: a change of float
  format is the identity, a blocked matrix product into a zero accumulator is the host's product, and the gather /
  scale / scatter-add steps, the degrees and the pooling are the same operations in both programs — no law of
  arithmetic beyond that is used, and the finiteness of the inputs is never needed.

  The proof: both programs' result buffers are the functions `out0`, `out1`, `out2`, `hfin` (Net.lean, over the stages
  of Spec.lean) of their own argument arrays. For the reference this is its 155 operations read in nine stretches
  (ReferenceFold / ReferenceValues / ReferenceResults). For the kernel program it is the generated run of its eleven
  segments with the result buffers read at the last boundary (KernelResults), the boundaries read back stretch by
  stretch (KernelValues), and per fused region the equation "output array = the fused step of the entry arrays"
  (Region0 … Region3: the block a grid point writes is that step's rows 5000·t … 5000·t + 4999, and the twenty blocks
  cover the array). The frames of the two kernel programs are the generated ones; the reference's frame is its run with
  the results dropped; the idealization rewrote nothing, so `preserves` is trivial.
-/
import proofs.«176120_j39779987095909_1_alg».proof.Defs
import proofs.«176120_j39779987095909_1_alg».proof.Proof.Gen.Kernel
import proofs.«176120_j39779987095909_1_alg».proof.Proof.Gen.Kernel.Frame
import proofs.«176120_j39779987095909_1_alg».proof.Proof.Gen.KernelIdeal
import proofs.«176120_j39779987095909_1_alg».proof.Proof.Gen.KernelIdeal.Frame
import proofs.«176120_j39779987095909_1_alg».proof.Proof.Gen.ReferenceIdeal
import proofs.«176120_j39779987095909_1_alg».proof.Proof.Gen.Pre_finite_inputs
import proofs.«176120_j39779987095909_1_alg».proof.Proof.KernelResults
import proofs.«176120_j39779987095909_1_alg».proof.Proof.KernelValues
import proofs.«176120_j39779987095909_1_alg».proof.Proof.ReferenceResults
import proofs.«176120_j39779987095909_1_alg».proof.Proof.Region0
import proofs.«176120_j39779987095909_1_alg».proof.Proof.Region1
import proofs.«176120_j39779987095909_1_alg».proof.Proof.Region2
import proofs.«176120_j39779987095909_1_alg».proof.Proof.Region3
import Idealize.ShloMosaic.Adequacy
import Idealize.ShloMosaic.Init

noncomputable section

namespace Cert.Proof

open Idealize.ShloMosaic Idealize.SL.Sem Cert.GNN

theorem frame_k : Cert.frame_Kernel := fun m ρ _ => Cert.Kernel.Gen.frame m ρ

theorem frame_ki : Cert.frame_KernelIdeal := fun m ρ _ => Cert.KernelIdeal.Gen.frame m ρ

/-- The reference's run with its results dropped. -/
theorem frame_ri : Cert.frame_ReferenceIdeal := fun m ρ _ =>
  (θ_run Cert.ReferenceIdeal.defs _ _).mono (fun _ h c => (h c).2.2.2.2) (Cert.ReferenceIdeal.Fold.run_results (F := Ideal) m ρ)

/-- The ideal pass rewrote no operation. -/
theorem preserves : Cert.preserves_Kernel_KernelIdeal := trivial

/-- Both programs end with their four result buffers at `out0`, `out1`, `out2`, `hfin` of their argument arrays,
    and the argument arrays agree. -/
theorem algebraic : Cert.algebraic_KernelIdeal_ReferenceIdeal := by
  intro m ρ m' ρ' _ hagree
  refine ⟨fun c => out0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => out1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => out2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => hfin (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c =>
      ⟨(h c).1.trans (Cert.KernelIdeal.Fold.W11_v104 m ρ c Cert.KernelIdeal.Region0.array0 Cert.KernelIdeal.Region1.array1 Cert.KernelIdeal.Region2.array2 Cert.KernelIdeal.Region3.array3_h),
       (h c).2.1.trans (Cert.KernelIdeal.Fold.W11_v88 m ρ c Cert.KernelIdeal.Region0.array0 Cert.KernelIdeal.Region1.array1 Cert.KernelIdeal.Region2.array2 Cert.KernelIdeal.Region3.array3_t),
       (h c).2.2.1.trans (Cert.KernelIdeal.Fold.W11_v108 m ρ c Cert.KernelIdeal.Region0.array0 Cert.KernelIdeal.Region1.array1 Cert.KernelIdeal.Region2.array2 Cert.KernelIdeal.Region3.array3_h),
       (h c).2.2.2.1.trans (Cert.KernelIdeal.Fold.W11_v87_0 m ρ c Cert.KernelIdeal.Region0.array0 Cert.KernelIdeal.Region1.array1 Cert.KernelIdeal.Region2.array2 Cert.KernelIdeal.Region3.array3_h),
       (h c).2.2.2.2⟩) (Cert.KernelIdeal.Results.run_results (F := Ideal) m ρ)
  · refine (θ_run Cert.ReferenceIdeal.defs _ _).mono (fun r h c => ?_) (Cert.ReferenceIdeal.Fold.run_results (F := Ideal) m' ρ')
    obtain ⟨e0, e1, e2, e3, e4, e5, e6, e7, e8, e9, e10, e11, e12⟩ := hagree c
    refine ⟨(h c).1.trans ?_, (h c).2.1.trans ?_, (h c).2.2.1.trans ?_, (h c).2.2.2.1.trans ?_, (h c).2.2.2.2⟩
    · rw [e0, e1, e2, e3, e4, e5, e6, e7, e8]
    · rw [e0, e1, e3, e4, e5, e6, e9, e10]
    · rw [e0, e1, e2, e3, e4, e5, e6, e11, e12]
    · rw [e0, e1, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
